-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S1x1024 : Shape := ⟨2, ![1, 1024]⟩
abbrev S512x384 : Shape := ⟨2, ![512, 384]⟩
abbrev S2048x384 : Shape := ⟨2, ![2048, 384]⟩
abbrev S512x128 : Shape := ⟨2, ![512, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1x3072, .f32⟩
  | .hbm, ⟨7, _⟩ => ⟨S4096x3072, .bf16⟩
  | .hbm, ⟨8, _⟩ => ⟨S4096x1024, .bf16⟩
  | .hbm, ⟨9, _⟩ => ⟨S1x1024, .f32⟩
  | .hbm, ⟨10, _⟩ => ⟨S4096x1024, .f32⟩
  | .hbm, ⟨11, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x384, .bf16⟩
  | .local _ .vmem, ⟨9, _⟩ => ⟨S512x384, .bf16⟩
  | .local _ .vmem, ⟨10, _⟩ => ⟨S2048x384, .bf16⟩
  | .local _ .vmem, ⟨11, _⟩ => ⟨S2048x384, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  slices_S512x384_o0_0_S512x64 : S512x384.Slices ![0, 0] S512x64
  slices_S2048x384_o0_64_S2048x64 : S2048x384.Slices ![0, 64] S2048x64
  slices_S2048x384_o0_128_S2048x64 : S2048x384.Slices ![0, 128] S2048x64
  slices_S512x384_o0_192_S512x64 : S512x384.Slices ![0, 192] S512x64
  slices_S2048x384_o0_256_S2048x64 : S2048x384.Slices ![0, 256] S2048x64
  slices_S2048x384_o0_320_S2048x64 : S2048x384.Slices ![0, 320] S2048x64
  reduces_S512x2048_S512 : S512x2048.Reduces [1] S512
  shapeCasts_S512_S512x1 : S512.ShapeCasts S512x1
  broadcasts_S512x1_S512x2048 : S512x1.Broadcasts S512x2048
  concatenates_S512x64_S512x64_S512x128_d1 : Shape.Concatenates [S512x64, S512x64] S512x128 1
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S1024_S1x1024 : S1024.ShapeCasts S1x1024
  shapeCasts_S4096x1024_S2x2048x1024 : S4096x1024.ShapeCasts S2x2048x1024
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .f32 = 32 ∨ (Rect.block (s := S3072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .bf16 = 32 ∨ (Rect.block (s := S4096x3072) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x384.size a ≤ S4096x3072.size a
  hwx1_0 : ∀ i : grid1.Coords, EltTy.bits .bf16 = 32 ∨ (Rect.block (s := S4096x3072) S512x384.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x384.size a ≤ S4096x3072.size a
  hwx1_1 : ∀ i : grid1.Coords, EltTy.bits .bf16 = 32 ∨ (Rect.block (s := S4096x3072) S2048x384.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x1024.size a
  hwx1_2 : ∀ i : grid1.Coords, EltTy.bits .bf16 = 32 ∨ (Rect.block (s := S4096x1024) S512x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.BitsRegion0.lean ====
/-
  The first pallas_call (the fused query/key/value projection) at region-entry contents `V`: at grid point `t` the
  body reads a [512,1024] block of the flattened input, a [1024,1024] block of the weight rows and a [1,1024] block of
  the bias, and stores ONE [512,1024] block: the product of the input block with the transposed weight block plus the
  bias row.  Stated here: each window's block at a point, what the body leaves in the output's staging buffer as a
  function of the three input blocks, the body's triple, the pipeline's proof data, and the body obligation.
-/
import proofs.«180047_j69148973466281_2_alg».proof.Proof.Gen.Kernel.Launch
import proofs.«180047_j69148973466281_2_alg».proof.Proof.Gen.Kernel.Skeleton
import proofs.«180047_j69148973466281_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on a core when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev r0_a : Rect S512x1024 := Rect.unit (s := S512x1024) ![0, 0] S512x1024.size inb_S512x1024_S512x1024_0_0
abbrev r0_b : Rect S1024x1024 := Rect.unit (s := S1024x1024) ![0, 0] S1024x1024.size inb_S1024x1024_S1024x1024_0_0
abbrev r0_c : Rect S1x1024 := Rect.unit (s := S1x1024) ![0, 0] S1x1024.size inb_S1x1024_S1x1024_0_0

/-- The output's staging buffer after the body, from the three input blocks: its one store as a piece. -/
def out0_3 (x0 : Vec F S512x1024 .f32) (x1 : Vec F S1024x1024 .f32) (x2 : Vec F S1x1024 .f32) : Vec F S512x1024 .bf16 :=
  View.canon [⟨r0_a, k0_pay1 (View.ld x0 r0_a) (View.ld x1 r0_b) (View.ld x2 r0_c)⟩]

/-- The one store covers the buffer. -/
theorem cover0_3 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging memrefs, the inputs' at contents `xW` and the output's at anything, runs to the
    continuation holding the inputs' as they were and the output's at `out0_3` of them. -/
theorem sound_kernel0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The second pallas_call (softmax attention, two heads a grid point) at region-entry contents `V`.  Its two input
  windows read the SAME array, the fused projection: window 0 a [512,384] block of query rows, window 1 the [2048,384]
  block of all key and value rows of the batch entry; the core therefore holds that array once through each window, at
  the two halves of the full share.  At grid point `t` the body stores ONE [512,128] block: the two heads' attention
  results side by side.  Stated here: each window's block at a point, what the body leaves in the output's staging
  buffer, the body's triple, the proof data, the body obligation.
-/
import proofs.«180047_j69148973466281_2_alg».proof.Proof.Gen.Kernel.Launch
import proofs.«180047_j69148973466281_2_alg».proof.Proof.Gen.Kernel.Skeleton
import proofs.«180047_j69148973466281_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on a core when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_a : Rect S512x384 := Rect.unit (s := S512x384) ![0, 0] S512x384.size inb_S512x384_S512x384_0_0
abbrev r1_b : Rect S2048x384 := Rect.unit (s := S2048x384) ![0, 0] S2048x384.size inb_S2048x384_S2048x384_0_0
abbrev r1_c : Rect S512x128 := Rect.unit (s := S512x128) ![0, 0] S512x128.size inb_S512x128_S512x128_0_0

/-- The output's staging buffer after the body, from the two input blocks: its one store as a piece. -/
def out1_2 (x0 : Vec F S512x384 .bf16) (x1 : Vec F S2048x384 .bf16) : Vec F S512x128 .bf16 :=
  View.canon [⟨r1_c, k1_pay1 (View.ld x0 r1_a) (View.ld x1 r1_b)⟩]

/-- The one store covers the buffer. -/
theorem cover1_2 (p0 : Vec F S512x128 .bf16) (y : S512x128.Idx) :
    ∃ pc ∈ ([⟨r1_c, p0⟩] : List (View.Piece (Elt F) S512x128 .bf16)), y ∈ pc.1.set :=
  View.cover_of_tiled [⟨r1_c, p0⟩] S512x128.size (by rfl) y

set_option maxHeartbeats 1000000 in
/-- The body on whole staging memrefs, the inputs' at contents `xW` and the output's at anything, runs to the
    continuation holding the inputs' as they were and the output's at `out1_2` of them. -/
theorem sound_kernel1 (c : Dev nD) (E : Set ℕ) (i : grid1.Coords) (arg3 : Memref sig .tc .vmem S512x384 .bf16) (harg3 : arg3.IsWhole) (arg4 : Memref sig .tc .vmem S2048x384 .bf16) (harg4 : arg4.IsWhole) (arg5 : Memref sig .tc .vmem S512x128 .bf16) (harg5 : arg5.IsWhole)
    (x0 : Vec F S512x384 .bf16) (x1 : Vec F S2048x384 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__attn_kernel i arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body at point
    `t` each input's buffer at its block and the output's at `out1_2` of the input blocks; the invariant the scoped rest
    and the generator register, untouched; nothing owed; the shared input array held at the left half of the full share
    through window 0 and at the right half through window 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  The third pallas_call (the output projection) at region-entry contents `V`: at grid point `t` the body reads a
  [512,1024] block of the concatenated heads, the whole [1024,1024] weight and the [1,1024] bias row, and stores ONE
  [512,1024] block: the product of the block with the transposed weight plus the bias row.  Stated here: each window's
  block at a point, what the body leaves in the output's staging buffer, the body's triple, the proof data, the body
  obligation.
-/
import proofs.«180047_j69148973466281_2_alg».proof.Proof.Gen.Kernel.Launch
import proofs.«180047_j69148973466281_2_alg».proof.Proof.Gen.Kernel.Skeleton
import proofs.«180047_j69148973466281_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on a core when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev r2_a : Rect S512x1024 := Rect.unit (s := S512x1024) ![0, 0] S512x1024.size inb_S512x1024_S512x1024_0_0
abbrev r2_b : Rect S1024x1024 := Rect.unit (s := S1024x1024) ![0, 0] S1024x1024.size inb_S1024x1024_S1024x1024_0_0
abbrev r2_c : Rect S1x1024 := Rect.unit (s := S1x1024) ![0, 0] S1x1024.size inb_S1x1024_S1x1024_0_0

/-- The output's staging buffer after the body, from the three input blocks: its one store as a piece. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_b) (View.ld x2 r2_c)⟩]

/-- The one store covers the buffer. -/
theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole staging memrefs, the inputs' at contents `xW` and the output's at anything, runs to the
    continuation holding the inputs' as they were and the output's at `out2_3` of them. -/
theorem sound_kernel2 (c : Dev nD) (E : Set ℕ) (i : grid2.Coords) (arg2 : Memref sig .tc .vmem S512x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c`: the arrays as the region finds them; after the body at point `t`
    each input's buffer at its block and the output's at `out2_3` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsBounds.lean ====
/-
  The buffer contents between the items of @main, folded from the launch memory: a host stretch applies its
  operations; a pallas_call leaves its output array at what its grid points' write-backs make of it and every other
  buffer as it found it.  Also here: how the second pallas_call, whose two input windows read ONE array, takes that
  array out of the core's buffers — split into the two halves of the full share, one per window — and puts it back
  whole, unchanged, beside the output array it wrote.
-/
import proofs.«180047_j69148973466281_2_alg».proof.Proof.BitsRegion0
import proofs.«180047_j69148973466281_2_alg».proof.Proof.BitsRegion1
import proofs.«180047_j69148973466281_2_alg».proof.Proof.BitsRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second pallas_call's arrays: one shared input array and the output array -/

section Shared
variable (V : (c : Dev nD) → (b : Ref sig .tc) → Buf (Elt F) ((c : Thread nD τ).loc b))

/-- The distinct buffers behind the three windows' arrays. -/
theorem arrImg1 : (Finset.univ.image (Pipeline.arrRef spec1) : Finset (Ref sig .tc)) = {main_v2, main_v3} := by decide

/-- The pipeline's arrays, window by window: the shared array at the left half through window 0 and at the right half
    through window 1, the output array at the full share. -/
theorem arrays1_eq (c : Dev nD) (Fn : (w : Fin cfg1.W) → Buf (Elt F) ((cfg1.win w).arr.view.loc (c : Thread nD τ))) :
    ((dat1 V c).arrays Fn : sProp 𝕄) = iprop((((c : Thread nD τ).loc main_v2) ↦{fullShare.left} Fn 0) ∗ (((c : Thread nD τ).loc main_v2) ↦{fullShare.right} Fn 1)
      ∗ (((c : Thread nD τ).loc main_v3) ↦{fullShare} Fn 2)) := by
  unfold Pipeline.Dat.arrays
  rw [bigSep_W1, (arr_whole1 0).set_eq_univ, (arr_whole1 2).set_eq_univ]
  rfl

/-- ENTRY: the core's unscoped buffers at `V` are the pipeline's arrays at their entry contents and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.PerCore.unscopedBufs_split₀ (fun _ : Dev nD => cfgs) (1 : Fin 3) c (by decide) (V c), arrays1_eq]
  refine sep_mono ?_ .rfl
  unfold Pipeline.arrBufs
  rw [show Finset.image (Pipeline.arrRef (cfgs 1).spec) Finset.univ = ({main_v2, main_v3} : Finset (Ref sig .tc)) from arrImg1, bigSep_insert (by decide), bigSep_singleton]
  rw [show (dat1 V c).arrAt 0 0 = (dat1 V c).A 0 from rfl, show (dat1 V c).arrAt 1 0 = (dat1 V c).A 1 from rfl,
    show (dat1 V c).arrAt 2 0 = (dat1 V c).A 2 from rfl, A_eq1, A_eq1, A_eq1]
  show (iprop((((c : Thread nD τ).loc main_v2) ↦{fullShare} V c main_v2) ∗ (((c : Thread nD τ).loc main_v3) ↦{fullShare} V c main_v3)) : sProp 𝕄) ⊢ _
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: the arrays as the pipeline leaves them — the shared input array unchanged through both windows — and the
    rest make the core's unscoped buffers at any `V'` that has the output array's final contents and agrees with `V`
    elsewhere. -/
theorem exit1 (c : Dev nD) (V' : (b : Ref sig .tc) → Buf (Elt F) ((c : Thread nD τ).loc b))
    (h2 : V' main_v2 = V c main_v2) (h3 : V' main_v3 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  rw [Pipeline.PerCore.unscopedBufs_split₀ (fun _ : Dev nD => cfgs) (1 : Fin 3) c (by decide) V', arrays1_eq]
  refine sep_mono ?_ (Entails.of_eq ?_)
  · unfold Pipeline.arrBufs
    rw [show Finset.image (Pipeline.arrRef (cfgs 1).spec) Finset.univ = ({main_v2, main_v3} : Finset (Ref sig .tc)) from arrImg1, bigSep_insert (by decide), bigSep_singleton, h2, h3,
      (dat1 V c).arrAt_in 0 rfl _, (dat1 V c).arrAt_in 1 rfl _, A_eq1, A_eq1]
    show _ ⊢ (iprop((((c : Thread nD τ).loc main_v2) ↦{fullShare} V c main_v2) ∗ (((c : Thread nD τ).loc main_v3) ↦{fullShare} (dat1 V c).arrAt 2 cfg1.N)) : sProp 𝕄)
    iintro ⟨Hl, Hr, H3⟩
    isplitl [Hl Hr]
    · iapply (pointsTo_share (PosShare.mem_left_op_right fullShare)).2
      isplitl [Hl] <;> iassumption
    iexact H3
  · unfold Pipeline.unscopedRest
    exact bigSep_congr fun b hb => by rw [hrest b (Finset.mem_sdiff.mp hb).2]

end Shared

/-! ## The buffer contents at each boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes before the first pallas_call. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pallas_call: the attention output array at what the pipeline leaves, every other buffer — the
    shared input array among them — as entered. -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_out (c : Dev nD) : V3 m ρ c main_v3 = (dat1 (V2 m ρ) c).arrAt 2 cfg1.N := by
  show W3 m ρ c (Proc.devRef .tc main_v3) = _
  unfold W3; exact Function.update_self ..
theorem W3_of_ne (c : Dev nD) (b : Ref sig .tc) (hb : b ≠ main_v3) : V3 m ρ c b = V2 m ρ c b := by
  show W3 m ρ c (Proc.devRef .tc b) = W2 m ρ c (Proc.devRef .tc b)
  unfold W3
  exact Function.update_of_ne (StableHlo.devRef_ne_of_ne hb : (Proc.devRef .tc b : DevRef τ sig) ≠ Proc.devRef .tc main_v3) ..
theorem hrest1 (c : Dev nD) : ∀ b, b ∉ Finset.univ.image (Pipeline.arrRef spec1) → V3 m ρ c b = V2 m ρ c b :=
  fun b hb => W3_of_ne m ρ c b fun e => hb (by rw [arrImg1, e]; decide)

/-- After the reshape of the output bias. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the third pallas_call. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the final reshape: the last boundary. -/
abbrev W6 : Dev nD → Valuation τ sig (Elt F) := fun c => StableHlo.after hostOps3 (W5 m ρ c)

/-! ## The proof data family -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c

end Cert.Kernel.Hand

end
-- ==== Proof.BitsRun.lean ====
/-
  The run of @main: two reshapes, the three pallas_calls (a reshape of the output bias before the third), a final
  reshape.  Each pallas_call is entered from the core's unscoped buffers at the boundary contents before it and left at
  the contents after it; the launch is composed over the six items, and the last boundary is read against the final
  state: every unscoped buffer ends at `W6`.
-/
import proofs.«180047_j69148973466281_2_alg».proof.Proof.BitsBounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item, over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor

/-- The last thread state without the dues: every unscoped buffer at the last boundary's contents. -/
abbrev Tₙ (c : Dev nD) : sProp 𝕄 := iprop(StableHlo.held (c : Thread nD τ) (Pipeline.ucRefs τ sig) (W6 m ρ c) ∗ ∃ r, prngReg c r)

/-! ## The pallas_calls as items -/

set_option backward.isDefEq.respectTransparency.types false in
/-- The first pallas_call: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered at `W2`, left at `W3`; its shared input array dealt to the two windows at entry
    and joined again at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (W3_of_ne m ρ c main_v2 (by decide)) (W3_out m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third pallas_call: entered at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ),
    .host (hseg hostOps3 hostOps3_sub ops3_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer of every core at the last boundary's contents `W6`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.BitsKept.lean ====
/-
  No item of @main changes an argument array: a host stretch writes only its own results, a pallas_call only its
  output array (an argument it reads through an input window comes back as it went in).  So each argument's buffer at
  the last boundary is its launch contents.
-/
import proofs.«180047_j69148973466281_2_alg».proof.Proof.BitsBounds
import proofs.«180047_j69148973466281_2_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the last boundary as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` reaches the last boundary as launched. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

/-- `main_arg2` reaches the last boundary as launched. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the last boundary as launched. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide)
    _ = W4 m ρ c (Proc.devRef .tc main_arg3) := (W5_arr m ρ c 1).trans (((dat2 (V4 m ρ) c).arrAt_in 1 rfl _).trans (A_eq2 (V4 m ρ) c 1))
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the last boundary as launched. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub hostOps3 _ hostOps3_writes (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.Kernel.Hand

end
-- ==== Proof.IdealRegion0.lean ====
/-
  The first pallas_call (the fused query/key/value projection) at region-entry contents `V`: at grid point `t` the
  body reads a [512,1024] block of the flattened input, a [1024,1024] block of the weight rows and a [1,1024] block of
  the bias, and stores ONE [512,1024] block: the product of the input block with the transposed weight block plus the
  bias row.  Stated here: each window's block at a point, what the body leaves in the output's staging buffer as a
  function of the three input blocks, the body's triple, the pipeline's proof data, and the body obligation.
-/
import proofs.«180047_j69148973466281_2_alg».proof.Proof.Gen.KernelIdeal.Launch
import proofs.«180047_j69148973466281_2_alg».proof.Proof.Gen.KernelIdeal.Skeleton
import proofs.«180047_j69148973466281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on a core when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev r0_a : Rect S512x1024 := Rect.unit (s := S512x1024) ![0, 0] S512x1024.size inb_S512x1024_S512x1024_0_0
abbrev r0_b : Rect S1024x1024 := Rect.unit (s := S1024x1024) ![0, 0] S1024x1024.size inb_S1024x1024_S1024x1024_0_0
abbrev r0_c : Rect S1x1024 := Rect.unit (s := S1x1024) ![0, 0] S1x1024.size inb_S1x1024_S1x1024_0_0

/-- The output's staging buffer after the body, from the three input blocks: its one store as a piece. -/
def out0_3 (x0 : Vec F S512x1024 .f32) (x1 : Vec F S1024x1024 .f32) (x2 : Vec F S1x1024 .f32) : Vec F S512x1024 .bf16 :=
  View.canon [⟨r0_a, k0_pay1 (View.ld x0 r0_a) (View.ld x1 r0_b) (View.ld x2 r0_c)⟩]

/-- The one store covers the buffer. -/
theorem cover0_3 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging memrefs, the inputs' at contents `xW` and the output's at anything, runs to the
    continuation holding the inputs' as they were and the output's at `out0_3` of them. -/
theorem sound_kernel0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  The second pallas_call (softmax attention, two heads a grid point) at region-entry contents `V`.  Its two input
  windows read the SAME array, the fused projection: window 0 a [512,384] block of query rows, window 1 the [2048,384]
  block of all key and value rows of the batch entry; the core therefore holds that array once through each window, at
  the two halves of the full share.  At grid point `t` the body stores ONE [512,128] block: the two heads' attention
  results side by side.  Stated here: each window's block at a point, what the body leaves in the output's staging
  buffer, the body's triple, the proof data, the body obligation.
-/
import proofs.«180047_j69148973466281_2_alg».proof.Proof.Gen.KernelIdeal.Launch
import proofs.«180047_j69148973466281_2_alg».proof.Proof.Gen.KernelIdeal.Skeleton
import proofs.«180047_j69148973466281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on a core when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_a : Rect S512x384 := Rect.unit (s := S512x384) ![0, 0] S512x384.size inb_S512x384_S512x384_0_0
abbrev r1_b : Rect S2048x384 := Rect.unit (s := S2048x384) ![0, 0] S2048x384.size inb_S2048x384_S2048x384_0_0
abbrev r1_c : Rect S512x128 := Rect.unit (s := S512x128) ![0, 0] S512x128.size inb_S512x128_S512x128_0_0

/-- The output's staging buffer after the body, from the two input blocks: its one store as a piece. -/
def out1_2 (x0 : Vec F S512x384 .bf16) (x1 : Vec F S2048x384 .bf16) : Vec F S512x128 .bf16 :=
  View.canon [⟨r1_c, k1_pay1 (View.ld x0 r1_a) (View.ld x1 r1_b)⟩]

/-- The one store covers the buffer. -/
theorem cover1_2 (p0 : Vec F S512x128 .bf16) (y : S512x128.Idx) :
    ∃ pc ∈ ([⟨r1_c, p0⟩] : List (View.Piece (Elt F) S512x128 .bf16)), y ∈ pc.1.set :=
  View.cover_of_tiled [⟨r1_c, p0⟩] S512x128.size (by rfl) y

set_option maxHeartbeats 1000000 in
/-- The body on whole staging memrefs, the inputs' at contents `xW` and the output's at anything, runs to the
    continuation holding the inputs' as they were and the output's at `out1_2` of them. -/
theorem sound_kernel1 (c : Dev nD) (E : Set ℕ) (i : grid1.Coords) (arg3 : Memref sig .tc .vmem S512x384 .bf16) (harg3 : arg3.IsWhole) (arg4 : Memref sig .tc .vmem S2048x384 .bf16) (harg4 : arg4.IsWhole) (arg5 : Memref sig .tc .vmem S512x128 .bf16) (harg5 : arg5.IsWhole)
    (x0 : Vec F S512x384 .bf16) (x1 : Vec F S2048x384 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__attn_kernel i arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body at point
    `t` each input's buffer at its block and the output's at `out1_2` of the input blocks; the invariant the scoped rest
    and the generator register, untouched; nothing owed; the shared input array held at the left half of the full share
    through window 0 and at the right half through window 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  The third pallas_call (the output projection) at region-entry contents `V`: at grid point `t` the body reads a
  [512,1024] block of the concatenated heads, the whole [1024,1024] weight and the [1,1024] bias row, and stores ONE
  [512,1024] block: the product of the block with the transposed weight plus the bias row.  Stated here: each window's
  block at a point, what the body leaves in the output's staging buffer, the body's triple, the proof data, the body
  obligation.
-/
import proofs.«180047_j69148973466281_2_alg».proof.Proof.Gen.KernelIdeal.Launch
import proofs.«180047_j69148973466281_2_alg».proof.Proof.Gen.KernelIdeal.Skeleton
import proofs.«180047_j69148973466281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on a core when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev r2_a : Rect S512x1024 := Rect.unit (s := S512x1024) ![0, 0] S512x1024.size inb_S512x1024_S512x1024_0_0
abbrev r2_b : Rect S1024x1024 := Rect.unit (s := S1024x1024) ![0, 0] S1024x1024.size inb_S1024x1024_S1024x1024_0_0
abbrev r2_c : Rect S1x1024 := Rect.unit (s := S1x1024) ![0, 0] S1x1024.size inb_S1x1024_S1x1024_0_0

/-- The output's staging buffer after the body, from the three input blocks: its one store as a piece. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_b) (View.ld x2 r2_c)⟩]

/-- The one store covers the buffer. -/
theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole staging memrefs, the inputs' at contents `xW` and the output's at anything, runs to the
    continuation holding the inputs' as they were and the output's at `out2_3` of them. -/
theorem sound_kernel2 (c : Dev nD) (E : Set ℕ) (i : grid2.Coords) (arg2 : Memref sig .tc .vmem S512x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c`: the arrays as the region finds them; after the body at point `t`
    each input's buffer at its block and the output's at `out2_3` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealBounds.lean ====
/-
  The buffer contents between the items of @main, folded from the launch memory: a host stretch applies its
  operations; a pallas_call leaves its output array at what its grid points' write-backs make of it and every other
  buffer as it found it.  Also here: how the second pallas_call, whose two input windows read ONE array, takes that
  array out of the core's buffers — split into the two halves of the full share, one per window — and puts it back
  whole, unchanged, beside the output array it wrote.
-/
import proofs.«180047_j69148973466281_2_alg».proof.Proof.IdealRegion0
import proofs.«180047_j69148973466281_2_alg».proof.Proof.IdealRegion1
import proofs.«180047_j69148973466281_2_alg».proof.Proof.IdealRegion2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second pallas_call's arrays: one shared input array and the output array -/

section Shared
variable (V : (c : Dev nD) → (b : Ref sig .tc) → Buf (Elt F) ((c : Thread nD τ).loc b))

/-- The distinct buffers behind the three windows' arrays. -/
theorem arrImg1 : (Finset.univ.image (Pipeline.arrRef spec1) : Finset (Ref sig .tc)) = {main_v2, main_v3} := by decide

/-- The pipeline's arrays, window by window: the shared array at the left half through window 0 and at the right half
    through window 1, the output array at the full share. -/
theorem arrays1_eq (c : Dev nD) (Fn : (w : Fin cfg1.W) → Buf (Elt F) ((cfg1.win w).arr.view.loc (c : Thread nD τ))) :
    ((dat1 V c).arrays Fn : sProp 𝕄) = iprop((((c : Thread nD τ).loc main_v2) ↦{fullShare.left} Fn 0) ∗ (((c : Thread nD τ).loc main_v2) ↦{fullShare.right} Fn 1)
      ∗ (((c : Thread nD τ).loc main_v3) ↦{fullShare} Fn 2)) := by
  unfold Pipeline.Dat.arrays
  rw [bigSep_W1, (arr_whole1 0).set_eq_univ, (arr_whole1 2).set_eq_univ]
  rfl

/-- ENTRY: the core's unscoped buffers at `V` are the pipeline's arrays at their entry contents and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.PerCore.unscopedBufs_split₀ (fun _ : Dev nD => cfgs) (1 : Fin 3) c (by decide) (V c), arrays1_eq]
  refine sep_mono ?_ .rfl
  unfold Pipeline.arrBufs
  rw [show Finset.image (Pipeline.arrRef (cfgs 1).spec) Finset.univ = ({main_v2, main_v3} : Finset (Ref sig .tc)) from arrImg1, bigSep_insert (by decide), bigSep_singleton]
  rw [show (dat1 V c).arrAt 0 0 = (dat1 V c).A 0 from rfl, show (dat1 V c).arrAt 1 0 = (dat1 V c).A 1 from rfl,
    show (dat1 V c).arrAt 2 0 = (dat1 V c).A 2 from rfl, A_eq1, A_eq1, A_eq1]
  show (iprop((((c : Thread nD τ).loc main_v2) ↦{fullShare} V c main_v2) ∗ (((c : Thread nD τ).loc main_v3) ↦{fullShare} V c main_v3)) : sProp 𝕄) ⊢ _
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: the arrays as the pipeline leaves them — the shared input array unchanged through both windows — and the
    rest make the core's unscoped buffers at any `V'` that has the output array's final contents and agrees with `V`
    elsewhere. -/
theorem exit1 (c : Dev nD) (V' : (b : Ref sig .tc) → Buf (Elt F) ((c : Thread nD τ).loc b))
    (h2 : V' main_v2 = V c main_v2) (h3 : V' main_v3 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  rw [Pipeline.PerCore.unscopedBufs_split₀ (fun _ : Dev nD => cfgs) (1 : Fin 3) c (by decide) V', arrays1_eq]
  refine sep_mono ?_ (Entails.of_eq ?_)
  · unfold Pipeline.arrBufs
    rw [show Finset.image (Pipeline.arrRef (cfgs 1).spec) Finset.univ = ({main_v2, main_v3} : Finset (Ref sig .tc)) from arrImg1, bigSep_insert (by decide), bigSep_singleton, h2, h3,
      (dat1 V c).arrAt_in 0 rfl _, (dat1 V c).arrAt_in 1 rfl _, A_eq1, A_eq1]
    show _ ⊢ (iprop((((c : Thread nD τ).loc main_v2) ↦{fullShare} V c main_v2) ∗ (((c : Thread nD τ).loc main_v3) ↦{fullShare} (dat1 V c).arrAt 2 cfg1.N)) : sProp 𝕄)
    iintro ⟨Hl, Hr, H3⟩
    isplitl [Hl Hr]
    · iapply (pointsTo_share (PosShare.mem_left_op_right fullShare)).2
      isplitl [Hl] <;> iassumption
    iexact H3
  · unfold Pipeline.unscopedRest
    exact bigSep_congr fun b hb => by rw [hrest b (Finset.mem_sdiff.mp hb).2]

end Shared

/-! ## The buffer contents at each boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes before the first pallas_call. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pallas_call: the attention output array at what the pipeline leaves, every other buffer — the
    shared input array among them — as entered. -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_out (c : Dev nD) : V3 m ρ c main_v3 = (dat1 (V2 m ρ) c).arrAt 2 cfg1.N := by
  show W3 m ρ c (Proc.devRef .tc main_v3) = _
  unfold W3; exact Function.update_self ..
theorem W3_of_ne (c : Dev nD) (b : Ref sig .tc) (hb : b ≠ main_v3) : V3 m ρ c b = V2 m ρ c b := by
  show W3 m ρ c (Proc.devRef .tc b) = W2 m ρ c (Proc.devRef .tc b)
  unfold W3
  exact Function.update_of_ne (StableHlo.devRef_ne_of_ne hb : (Proc.devRef .tc b : DevRef τ sig) ≠ Proc.devRef .tc main_v3) ..
theorem hrest1 (c : Dev nD) : ∀ b, b ∉ Finset.univ.image (Pipeline.arrRef spec1) → V3 m ρ c b = V2 m ρ c b :=
  fun b hb => W3_of_ne m ρ c b fun e => hb (by rw [arrImg1, e]; decide)

/-- After the reshape of the output bias. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the third pallas_call. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the final reshape: the last boundary. -/
abbrev W6 : Dev nD → Valuation τ sig (Elt F) := fun c => StableHlo.after hostOps3 (W5 m ρ c)

/-! ## The proof data family -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c

end Cert.KernelIdeal.Hand

end
-- ==== Proof.IdealRun.lean ====
/-
  The run of @main: two reshapes, the three pallas_calls (a reshape of the output bias before the third), a final
  reshape.  Each pallas_call is entered from the core's unscoped buffers at the boundary contents before it and left at
  the contents after it; the launch is composed over the six items, and the last boundary is read against the final
  state: every unscoped buffer ends at `W6`.
-/
import proofs.«180047_j69148973466281_2_alg».proof.Proof.IdealBounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item, over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem ops3_fresh : (hostOps3 : List (HloOp τ sig (Elt F))).Forall fun op => op.fresh = ∅ := by
  simp only [List.Forall]; repeat' constructor

/-- The last thread state without the dues: every unscoped buffer at the last boundary's contents. -/
abbrev Tₙ (c : Dev nD) : sProp 𝕄 := iprop(StableHlo.held (c : Thread nD τ) (Pipeline.ucRefs τ sig) (W6 m ρ c) ∗ ∃ r, prngReg c r)

/-! ## The pallas_calls as items -/

set_option backward.isDefEq.respectTransparency.types false in
/-- The first pallas_call: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered at `W2`, left at `W3`; its shared input array dealt to the two windows at entry
    and joined again at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (W3_of_ne m ρ c main_v2 (by decide)) (W3_out m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third pallas_call: entered at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ),
    .host (hseg hostOps3 hostOps3_sub ops3_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer of every core at the last boundary's contents `W6`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.IdealKept.lean ====
/-
  No item of @main changes an argument array: a host stretch writes only its own results, a pallas_call only its
  output array (an argument it reads through an input window comes back as it went in).  So each argument's buffer at
  the last boundary is its launch contents.
-/
import proofs.«180047_j69148973466281_2_alg».proof.Proof.IdealBounds
import proofs.«180047_j69148973466281_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the last boundary as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` reaches the last boundary as launched. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

/-- `main_arg2` reaches the last boundary as launched. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the last boundary as launched. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide)
    _ = W4 m ρ c (Proc.devRef .tc main_arg3) := (W5_arr m ρ c 1).trans (((dat2 (V4 m ρ) c).arrAt_in 1 rfl _).trans (A_eq2 (V4 m ρ) c 1))
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the last boundary as launched. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub hostOps3 _ hostOps3_writes (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.KernelIdeal.Hand

end
-- ==== Proof.Spec.lean ====
/-
  The function both programs compute, index by index, on the extended reals.

  For a batch entry `b`, a position `t` and an output feature `d`:
    * the fused projection  qkv b t c = (∑ₖ x(b,t,k) · wA(c,k)) + bA(c),  c < 3072;
    * head `h` reads its query, key and value from the 192 consecutive columns `h·192 + o·64 + e`
      (o = 0, 1, 2; e < 64) of that projection — the per-head interleaved layout;
    * one query row attends over the 2048 positions of its batch entry: scores (∑ₑ q e · k j e) · 2⁻⁵, the
      row maximum as a fold of `max` from -∞, exponentials of the differences, their sum, the quotients, and the
      quotient-weighted sum of the value rows (`attnRow`);
    * the heads' results sit side by side, head `h` in columns `h·64 + e`, and the output projection is
      out b t d = (∑_c ctx(b,t,c) · wP(d,c)) + bP(d).
-/
import Idealize.ShloMosaic.PureOps.Ideal
import Idealize.ShloMosaic.Lib.ValueIdx

noncomputable section

open scoped BigOperators

namespace Cert.Attn

open Idealize.ShloMosaic Idealize.ShloMosaic.ValueIdx

abbrev XS : Shape := ⟨3, ![2, 2048, 1024]⟩
abbrev WAS : Shape := ⟨2, ![3072, 1024]⟩
abbrev BAS : Shape := ⟨1, ![3072]⟩
abbrev WPS : Shape := ⟨2, ![1024, 1024]⟩
abbrev BPS : Shape := ⟨1, ![1024]⟩

/-- Column of the fused projection holding feature `e` of part `o` (0 query, 1 key, 2 value) of head `h`. -/
def col (h : Fin 16) (o : Fin 3) (e : Fin 64) : Fin 3072 := ⟨h.val * 192 + o.val * 64 + e.val, by omega⟩

/-- Column of the concatenated heads holding feature `e` of head `h`. -/
def hcol (h : Fin 16) (e : Fin 64) : Fin 1024 := ⟨h.val * 64 + e.val, by omega⟩

/-- The score scale, 2⁻⁵, as the programs spell it. -/
def scale : EReal := Ideal.ofBits .f32 0x3D000000#32

/-- The value the row maximum is folded from, -∞ as the programs spell it. -/
def negInf : EReal := Ideal.ofBits .f32 0xFF800000#32

/-- Softmax attention of ONE query row `q` over `n` key rows `k j` and value rows `v j`, read at feature `e`. -/
def attnRow {n : ℕ} (q : Fin 64 → EReal) (k v : Fin n → Fin 64 → EReal) (e : Fin 64) : EReal :=
  let s : Fin n → EReal := fun j => (∑ e' : Fin 64, q e' * k j e') * scale
  let mx : EReal := (Finset.univ : Finset (Fin n)).fold max negInf s
  let ex : Fin n → EReal := fun j => Ideal.exp (s j - mx)
  let dn : EReal := ∑ j : Fin n, ex j
  ∑ j : Fin n, Ideal.div (ex j) dn * v j e

section
variable (x : XS.Idx → EReal) (wA : WAS.Idx → EReal) (bA : BAS.Idx → EReal) (wP : WPS.Idx → EReal) (bP : BPS.Idx → EReal)

/-- The fused query/key/value projection. -/
def qkv (b : Fin 2) (t : Fin 2048) (c : Fin 3072) : EReal :=
  (∑ k : Fin 1024, x (ix3 b t k) * wA (ix2 c k)) + bA (ix1 c)

/-- Head `h`'s attention result for position `t` of batch entry `b`, feature `e`. -/
def ctx (b : Fin 2) (t : Fin 2048) (h : Fin 16) (e : Fin 64) : EReal :=
  attnRow (fun e' => qkv x wA bA b t (col h 0 e')) (fun j e' => qkv x wA bA b j (col h 1 e'))
    (fun j e' => qkv x wA bA b j (col h 2 e')) e

/-- The concatenated heads at column `c`. -/
def ctxCol (b : Fin 2) (t : Fin 2048) (c : Fin 1024) : EReal :=
  ctx x wA bA b t ⟨c.val / 64, by omega⟩ ⟨c.val % 64, by omega⟩

/-- The output projection. -/
def out3 (b : Fin 2) (t : Fin 2048) (d : Fin 1024) : EReal :=
  (∑ c : Fin 1024, ctxCol x wA bA b t c * wP (ix2 d c)) + bP (ix1 d)

/-- The whole result array. -/
def out : XS.Idx → EReal := fun i => out3 x wA bA wP bP (i 0) (i 1) (i 2)

end

end Cert.Attn

end
-- ==== Proof.RefQkv.lean ====
/-
  The reference program's fused projection, and its three per-head slices, read at an index.

  The reference computes the projection as a contraction plus a broadcast bias, then views the 3072 columns of a
  position as 16 heads of 192 columns, moves the head axis in front of the position axis, and cuts the 192 columns of
  a head into three runs of 64 (query, key, value). Read at (b, h, t, e) the three slices are the projection at
  (b, t, h·192 + o·64 + e), o = 0, 1, 2.
-/
import proofs.«180047_j69148973466281_2_alg».proof.Proof.Gen.ReferenceIdeal.Read
import proofs.«180047_j69148973466281_2_alg».proof.Proof.Spec

noncomputable section

open scoped BigOperators

namespace Cert.Attn.Ref

open Cert.ReferenceIdeal Cert.ReferenceIdeal.Read Idealize.ShloMosaic Idealize.ShloMosaic.ValueIdx

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The contraction plus the broadcast bias is the specification's projection. -/
theorem v3_at (b : Fin 2) (t : Fin 2048) (c : Fin 3072) :
    val_main_v3 (F := Ideal) x0 x1 x2 (ix3 b t c) = Cert.Attn.qkv x0 x1 x2 b t c := by
  rw [val_main_v3_apply, val_main_v0_apply, val_main_v2_apply, val_main_v1_apply]
  unfold Cert.Attn.qkv
  rw [Ideal.addf_def]
  have e1 : ∀ k : Fin 1024, lidx_main_v0 (ix3 b t c) k = ix3 b t k := fun k => funext fun a => Fin.ext (by
    match a with | ⟨0, _⟩ => rfl | ⟨1, _⟩ => rfl | ⟨2, _⟩ => rfl)
  have e2 : ∀ k : Fin 1024, ridx_main_v0 (ix3 b t c) k = ix2 c k := fun k => funext fun a => Fin.ext (by
    match a with | ⟨0, _⟩ => rfl | ⟨1, _⟩ => rfl)
  have e3 : idx_main_v1 (idx_main_v2 (ix3 b t c)) = ix1 c := funext fun a => Fin.ext (by
    match a with | ⟨0, _⟩ => rfl)
  rw [e3]
  refine congrArg (· + x2 (ix1 c)) (Finset.sum_congr rfl fun k _ => ?_)
  rw [e1, e2]

/-- Viewing the 3072 columns as 16 × 192 and swapping the head and position axes reads the projection at column
    h·192 + e'. -/
theorem v5_at (b : Fin 2) (h : Fin 16) (t : Fin 2048) (e' : Fin 192) :
    val_main_v5 (F := Ideal) x0 x1 x2 (ix4 b h t e')
      = Cert.Attn.qkv x0 x1 x2 b t ⟨h.val * 192 + e'.val, by omega⟩ := by
  rw [val_main_v5_apply, val_main_v4_apply]
  have e : idx_main_v4 (idx_main_v5 (ix4 b h t e')) = ix3 b t (⟨h.val * 192 + e'.val, by omega⟩ : Fin 3072) :=
    funext fun a => Fin.ext (by
      have hb := b.isLt; have hh := h.isLt; have ht := t.isLt; have he := e'.isLt
      match a with
      | ⟨0, _⟩ => show (((b.val * 2048 + t.val) * 16 + h.val) * 192 + e'.val) / 6291456 = b.val; omega
      | ⟨1, _⟩ => show (((b.val * 2048 + t.val) * 16 + h.val) * 192 + e'.val) / 3072 % 2048 = t.val; omega
      | ⟨2, _⟩ => show (((b.val * 2048 + t.val) * 16 + h.val) * 192 + e'.val) % 3072 = h.val * 192 + e'.val; omega)
  rw [e, v3_at]

/-- The first 64 columns of a head are its query. -/
theorem v6_at (b : Fin 2) (h : Fin 16) (t : Fin 2048) (e : Fin 64) :
    val_main_v6 (F := Ideal) x0 x1 x2 (ix4 b h t e) = Cert.Attn.qkv x0 x1 x2 b t (col h 0 e) := by
  rw [val_main_v6_apply]
  have e1 : idx_main_v6 (ix4 b h t e) = ix4 b h t (⟨e.val, by omega⟩ : Fin 192) :=
    funext fun a => Fin.ext (by match a with | ⟨0, _⟩ => rfl | ⟨1, _⟩ => rfl | ⟨2, _⟩ => rfl | ⟨3, _⟩ => rfl)
  rw [e1, v5_at]
  exact congrArg (Cert.Attn.qkv x0 x1 x2 b t) (Fin.ext (by show h.val * 192 + e.val = h.val * 192 + 0 * 64 + e.val; omega))

/-- The next 64 columns are its key. -/
theorem v7_at (b : Fin 2) (h : Fin 16) (t : Fin 2048) (e : Fin 64) :
    val_main_v7 (F := Ideal) x0 x1 x2 (ix4 b h t e) = Cert.Attn.qkv x0 x1 x2 b t (col h 1 e) := by
  rw [val_main_v7_apply]
  have e1 : idx_main_v7 (ix4 b h t e) = ix4 b h t (⟨64 + e.val, by omega⟩ : Fin 192) :=
    funext fun a => Fin.ext (by match a with | ⟨0, _⟩ => rfl | ⟨1, _⟩ => rfl | ⟨2, _⟩ => rfl | ⟨3, _⟩ => rfl)
  rw [e1, v5_at]
  exact congrArg (Cert.Attn.qkv x0 x1 x2 b t) (Fin.ext (by show h.val * 192 + (64 + e.val) = h.val * 192 + 1 * 64 + e.val; omega))

/-- The last 64 columns are its value. -/
theorem v8_at (b : Fin 2) (h : Fin 16) (t : Fin 2048) (e : Fin 64) :
    val_main_v8 (F := Ideal) x0 x1 x2 (ix4 b h t e) = Cert.Attn.qkv x0 x1 x2 b t (col h 2 e) := by
  rw [val_main_v8_apply]
  have e1 : idx_main_v8 (ix4 b h t e) = ix4 b h t (⟨128 + e.val, by omega⟩ : Fin 192) :=
    funext fun a => Fin.ext (by match a with | ⟨0, _⟩ => rfl | ⟨1, _⟩ => rfl | ⟨2, _⟩ => rfl | ⟨3, _⟩ => rfl)
  rw [e1, v5_at]
  exact congrArg (Cert.Attn.qkv x0 x1 x2 b t) (Fin.ext (by show h.val * 192 + (128 + e.val) = h.val * 192 + 2 * 64 + e.val; omega))

end Cert.Attn.Ref

end
-- ==== Proof.RefAttn.lean ====
/-
  The reference program's softmax attention, read at an index.

  For batch entry b, head h and query position t the reference forms the 2048 scores (query row · key row) · 2⁻⁵,
  their maximum as a reduce from -∞ (and once more the maximum with -∞, which changes nothing), the exponentials of
  the differences, their sum from 0, the quotients, and the quotient-weighted sum of the value rows. Read at
  (b, h, t, e) that is the specification's attention result for position t of batch entry b, head h, feature e.
-/
import proofs.«180047_j69148973466281_2_alg».proof.Proof.RefQkv

noncomputable section

open scoped BigOperators

namespace Cert.Attn.Ref

open Cert.ReferenceIdeal Cert.ReferenceIdeal.Gen Cert.ReferenceIdeal.Read Idealize.ShloMosaic Idealize.ShloMosaic.ValueIdx

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The scores of query position `t` of head `h` in batch entry `b` against the 2048 key positions. -/
def sc (b : Fin 2) (h : Fin 16) (t : Fin 2048) : Fin 2048 → EReal := fun j =>
  (∑ e' : Fin 64, Cert.Attn.qkv x0 x1 x2 b t (col h 0 e') * Cert.Attn.qkv x0 x1 x2 b j (col h 1 e')) * scale

/-- Their maximum, folded from -∞. -/
def mx (b : Fin 2) (h : Fin 16) (t : Fin 2048) : EReal :=
  (Finset.univ : Finset (Fin 2048)).fold max negInf (sc x0 x1 x2 b h t)

/-- The exponentials of the differences. -/
def ex (b : Fin 2) (h : Fin 16) (t : Fin 2048) : Fin 2048 → EReal := fun j =>
  Ideal.exp (sc x0 x1 x2 b h t j - mx x0 x1 x2 b h t)

/-- Their sum. -/
def dn (b : Fin 2) (h : Fin 16) (t : Fin 2048) : EReal := ∑ j : Fin 2048, ex x0 x1 x2 b h t j

/-- The specification's attention result, in these words. -/
theorem ctx_eq (b : Fin 2) (t : Fin 2048) (h : Fin 16) (e : Fin 64) :
    Cert.Attn.ctx x0 x1 x2 b t h e
      = ∑ j : Fin 2048, Ideal.div (ex x0 x1 x2 b h t j) (dn x0 x1 x2 b h t) * Cert.Attn.qkv x0 x1 x2 b j (col h 2 e) := rfl

/-- The scaled scores. -/
theorem v11_at (b : Fin 2) (h : Fin 16) (t j : Fin 2048) :
    val_main_v11 (F := Ideal) x0 x1 x2 (ix4 b h t j) = sc x0 x1 x2 b h t j := by
  rw [val_main_v11_apply, val_main_v9_apply, val_main_v10_apply, val_main_cst_apply, Ideal.mulf_def, Ideal.ofBits_def]
  unfold sc scale
  refine congrArg (· * Ideal.ofBits .f32 0x3D000000#32) (Finset.sum_congr rfl fun k _ => ?_)
  have e1 : lidx_main_v9 (ix4 b h t j) k = ix4 b h t k := funext fun a => Fin.ext (by
    match a with | ⟨0, _⟩ => rfl | ⟨1, _⟩ => rfl | ⟨2, _⟩ => rfl | ⟨3, _⟩ => rfl)
  have e2 : ridx_main_v9 (ix4 b h t j) k = ix4 b h j k := funext fun a => Fin.ext (by
    match a with | ⟨0, _⟩ => rfl | ⟨1, _⟩ => rfl | ⟨2, _⟩ => rfl | ⟨3, _⟩ => rfl)
  rw [e1, e2, v6_at, v7_at]

/-- A reduce with a maximum body from the -∞ word along the last axis is, at (b, h, t), the fold of `max` from -∞ over
    that row. -/
theorem reduce_max_row (y : S2x16x2048x2048.Idx → Ideal .f32) (b : Fin 2) (h : Fin 16) (t : Fin 2048) :
    Host.reduce (α := Ideal .f32) FloatOps.maximumf y (val_main_cst_0 (F := Ideal)) Gen.reducesTo_S2x16x2048x2048_S2x16x2048_d3 Gen.h_S_ (ix3 b h t)
      = (Finset.univ : Finset (Fin 2048)).fold max negInf (fun j => y (ix4 b h t j)) := by
  have hr : S2x16x2048x2048.Reduces [3] S2x16x2048 :=
    ⟨Gen.reducesTo_S2x16x2048x2048_S2x16x2048_d3.1, by decide, Gen.reducesTo_S2x16x2048x2048_S2x16x2048_d3.2⟩
  refine (Host.reduce_eq_fold_single (α := Ideal .f32) FloatOps.maximumf y _ Gen.reducesTo_S2x16x2048x2048_S2x16x2048_d3 hr Gen.h_S_ (ix3 b h t)).trans ?_
  have hf : (y ∘ hr.lift (ix3 b h t)) = fun k : Fin 2048 => y (ix4 b h t k) := funext fun k => congrArg y (funext fun c => Fin.ext (by
    fin_cases c <;> rfl))
  rw [hf, val_main_cst_0_apply]
  rfl

/-- The row maximum: the reduce from -∞, and the maximum of -∞ with it, which is it again. -/
theorem v14_at (b : Fin 2) (h : Fin 16) (t : Fin 2048) :
    val_main_v14 (F := Ideal) x0 x1 x2 (ix3 b h t) = mx x0 x1 x2 b h t := by
  rw [val_main_v14_apply, val_main_v13_apply, val_main_cst_1_apply, Ideal.maximumf_def, Ideal.ofBits_def]
  have e : val_main_v12 (F := Ideal) x0 x1 x2 (ix3 b h t) = mx x0 x1 x2 b h t := by
    unfold val_main_v12
    refine (reduce_max_row (val_main_v11 (F := Ideal) x0 x1 x2) b h t).trans ?_
    unfold mx
    exact congrArg (fun f => Finset.fold max negInf f (Finset.univ : Finset (Fin 2048))) (funext fun j => v11_at x0 x1 x2 b h t j)
  rw [e]
  unfold mx
  exact max_eq_right ((Finset.le_fold_max _).mpr (Or.inl le_rfl))

/-- The exponentials of the differences. -/
theorem v18_at (b : Fin 2) (h : Fin 16) (t j : Fin 2048) :
    val_main_v18 (F := Ideal) x0 x1 x2 (ix4 b h t j) = ex x0 x1 x2 b h t j := by
  rw [val_main_v18_apply, val_main_v17_apply, val_main_v16_apply, val_main_v15_apply, Ideal.hostUnary_exp_def, Ideal.subf_def]
  have e : idx_main_v15 (idx_main_v16 (ix4 b h t j)) = ix3 b h t := funext fun a => Fin.ext (by
    match a with | ⟨0, _⟩ => rfl | ⟨1, _⟩ => rfl | ⟨2, _⟩ => rfl)
  rw [e, v14_at, v11_at]
  rfl

/-- Their sum, from the zero word. -/
theorem v19_at (b : Fin 2) (h : Fin 16) (t : Fin 2048) :
    val_main_v19 (F := Ideal) x0 x1 x2 (ix3 b h t) = dn x0 x1 x2 b h t := by
  rw [val_main_v19_apply, val_main_cst_2_apply, Ideal.ofBits_def, Ideal.ofBits_zero_f32, zero_add]
  unfold dn
  refine Finset.sum_congr rfl fun k _ => ?_
  have e : idx_main_v19 (ix3 b h t) k = ix4 b h t k := funext fun a => Fin.ext (by
    match a with | ⟨0, _⟩ => rfl | ⟨1, _⟩ => rfl | ⟨2, _⟩ => rfl | ⟨3, _⟩ => rfl)
  rw [e, v18_at]

/-- The quotients. -/
theorem v22_at (b : Fin 2) (h : Fin 16) (t j : Fin 2048) :
    val_main_v22 (F := Ideal) x0 x1 x2 (ix4 b h t j) = Ideal.div (ex x0 x1 x2 b h t j) (dn x0 x1 x2 b h t) := by
  rw [val_main_v22_apply, val_main_v21_apply, val_main_v20_apply, Ideal.hostDivf_def]
  have e : idx_main_v20 (idx_main_v21 (ix4 b h t j)) = ix3 b h t := funext fun a => Fin.ext (by
    match a with | ⟨0, _⟩ => rfl | ⟨1, _⟩ => rfl | ⟨2, _⟩ => rfl)
  rw [e, v19_at, v18_at]

/-- The quotient-weighted sum of the value rows is the specification's attention result. -/
theorem v23_at (b : Fin 2) (h : Fin 16) (t : Fin 2048) (e : Fin 64) :
    val_main_v23 (F := Ideal) x0 x1 x2 (ix4 b h t e) = Cert.Attn.ctx x0 x1 x2 b t h e := by
  rw [val_main_v23_apply, ctx_eq]
  refine Finset.sum_congr rfl fun k _ => ?_
  have e1 : lidx_main_v23 (ix4 b h t e) k = ix4 b h t k := funext fun a => Fin.ext (by
    match a with | ⟨0, _⟩ => rfl | ⟨1, _⟩ => rfl | ⟨2, _⟩ => rfl | ⟨3, _⟩ => rfl)
  have e2 : ridx_main_v23 (ix4 b h t e) k = ix4 b h k e := funext fun a => Fin.ext (by
    match a with | ⟨0, _⟩ => rfl | ⟨1, _⟩ => rfl | ⟨2, _⟩ => rfl | ⟨3, _⟩ => rfl)
  rw [e1, e2, v22_at, v8_at]

end Cert.Attn.Ref

end
-- ==== Proof.RefOut.lean ====
/-
  The reference program's output projection, read at an index, and the whole reference as the specification.

  The attention results of the 16 heads, held as (b, h, t, e), are moved to (b, t, h, e) and viewed as 1024 columns
  per position: column c holds head c / 64, feature c % 64. The output projection contracts those columns with the
  second weight matrix and adds the broadcast bias.
-/
import proofs.«180047_j69148973466281_2_alg».proof.Proof.RefAttn

noncomputable section

open scoped BigOperators

namespace Cert.Attn.Ref

open Cert.ReferenceIdeal Cert.ReferenceIdeal.Read Idealize.ShloMosaic Idealize.ShloMosaic.ValueIdx

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The heads side by side: column c of position t is head c / 64 at feature c % 64. -/
theorem v25_at (b : Fin 2) (t : Fin 2048) (c : Fin 1024) :
    val_main_v25 (F := Ideal) x0 x1 x2 (ix3 b t c) = Cert.Attn.ctxCol x0 x1 x2 b t c := by
  rw [val_main_v25_apply, val_main_v24_apply]
  have e : idx_main_v24 (idx_main_v25 (ix3 b t c))
      = ix4 b (⟨c.val / 64, by omega⟩ : Fin 16) t (⟨c.val % 64, by omega⟩ : Fin 64) :=
    funext fun a => Fin.ext (by
      have hb := b.isLt; have ht := t.isLt; have hc := c.isLt
      match a with
      | ⟨0, _⟩ => show ((b.val * 2048 + t.val) * 1024 + c.val) / 2097152 = b.val; omega
      | ⟨1, _⟩ => show ((b.val * 2048 + t.val) * 1024 + c.val) / 64 % 16 = c.val / 64; omega
      | ⟨2, _⟩ => show ((b.val * 2048 + t.val) * 1024 + c.val) / 1024 % 2048 = t.val; omega
      | ⟨3, _⟩ => show ((b.val * 2048 + t.val) * 1024 + c.val) % 64 = c.val % 64; omega)
  rw [e, v23_at]
  rfl

/-- The output projection. -/
theorem v29_at (b : Fin 2) (t : Fin 2048) (d : Fin 1024) :
    val_main_v29 (F := Ideal) x0 x1 x2 x3 x4 (ix3 b t d) = Cert.Attn.out3 x0 x1 x2 x3 x4 b t d := by
  rw [val_main_v29_apply, val_main_v26_apply, val_main_v28_apply, val_main_v27_apply, Ideal.addf_def]
  unfold Cert.Attn.out3
  have e3 : idx_main_v27 (idx_main_v28 (ix3 b t d)) = ix1 d := funext fun a => Fin.ext (by
    match a with | ⟨0, _⟩ => rfl)
  rw [e3]
  refine congrArg (· + x4 (ix1 d)) (Finset.sum_congr rfl fun k _ => ?_)
  have e1 : lidx_main_v26 (ix3 b t d) k = ix3 b t k := funext fun a => Fin.ext (by
    match a with | ⟨0, _⟩ => rfl | ⟨1, _⟩ => rfl | ⟨2, _⟩ => rfl)
  have e2 : ridx_main_v26 (ix3 b t d) k = ix2 d k := funext fun a => Fin.ext (by
    match a with | ⟨0, _⟩ => rfl | ⟨1, _⟩ => rfl)
  rw [e1, e2, v25_at]

/-- The reference program's last stage is the specification's result array. -/
theorem ref_eq :
    Cert.ReferenceIdeal.Read.val_main_v29 (F := Ideal) x0 x1 x2 x3 x4 = Cert.Attn.out x0 x1 x2 x3 x4 := by
  funext i
  obtain ⟨b, t, d, rfl⟩ : ∃ (b : Fin 2) (t : Fin 2048) (d : Fin 1024), i = ix3 b t d := ⟨i 0, i 1, i 2, eq_ix3 i⟩
  rw [v29_at]
  rfl

end Cert.Attn.Ref

end
-- ==== Proof.Rows.lean ====
/-
  Row `b·2048 + t` of a [4096, ·] array is position `t` of batch entry `b`: the flattening of the two leading axes.
-/
import proofs.«180047_j69148973466281_2_alg».proof.Proof.Spec

noncomputable section

namespace Cert.Attn

/-- The flattened row of position `t` of batch entry `b`. -/
def row (b : Fin 2) (t : Fin 2048) : Fin 4096 := ⟨b.val * 2048 + t.val, by omega⟩

end Cert.Attn

end
-- ==== Proof.IdealHost.lean ====
/-
  The host reshapes of the program, read at an index.

  Before the first region two reshapes lay the input `[2, 2048, 1024]` out as `[4096, 1024]` (row `b·2048 + t` is
  position `t` of batch entry `b`) and the first bias `[3072]` as the one row `[1, 3072]`; before the third region one
  reshape lays the second bias `[1024]` out as `[1, 1024]`; after it one reshape reads the `[4096, 1024]` result back
  as `[2, 2048, 1024]`. A reshape keeps the row-major position, so each entry is one entry of the operand; a buffer a
  stretch does not write keeps its contents.
-/
import proofs.«180047_j69148973466281_2_alg».proof.Proof.IdealBounds
import proofs.«180047_j69148973466281_2_alg».proof.Proof.Rows
import proofs.«180047_j69148973466281_2_alg».proof.Proof.Gen.KernelIdeal.Regions
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo (after_cons after_nil reshape_result reshape_result_ne)

variable (m : (ℓ : Loc nD τ sig) → Buf (Elt Ideal) ℓ) (ρ : Dev nD → PrngReg) (c : Dev nD)

/-! ## Before the first region -/

/-- The flattened input is the reshape of the input argument. -/
theorem V1_v0_eq :
    (V1 m ρ c main_v0 : S4096x1024.Idx → EReal)
      = shapeCast S4096x1024 (m ((c : Thread nD τ).loc main_arg0) : S2x2048x1024.Idx → EReal)
          shapeCasts_S2x2048x1024_S4096x1024 := by
  dsimp only [V1, W1, hostOps0]
  after_results
  rfl

/-- Row `b·2048 + t` of the flattened input is position `t` of batch entry `b`. -/
theorem V1_v0_at (b : Fin 2) (t : Fin 2048) (k : Fin 1024) :
    V1 m ρ c main_v0 (ix2 (Cert.Attn.row b t) k) = m ((c : Thread nD τ).loc main_arg0) (ix3 b t k) := by
  refine (congrFun (V1_v0_eq m ρ c) _).trans ?_
  refine shapeCast_apply (s := S2x2048x1024) (t := S4096x1024) _ shapeCasts_S2x2048x1024_S4096x1024
    (ix2 (Cert.Attn.row b t) k) (ix3 b t k) ?_
  rw [Shape.rowMajor_val_three, Shape.rowMajor_val_two]
  rfl

/-- The first bias as one row is the reshape of the bias argument. -/
theorem V1_v1_eq :
    (V1 m ρ c main_v1 : S1x3072.Idx → EReal)
      = shapeCast S1x3072 (m ((c : Thread nD τ).loc main_arg2) : S3072.Idx → EReal) shapeCasts_S3072_S1x3072 := by
  dsimp only [V1, W1, hostOps0]
  after_results
  rfl

/-- Entry `d` of the one row is entry `d` of the bias. -/
theorem V1_v1_at (d : Fin 3072) :
    V1 m ρ c main_v1 (ix2 (0 : Fin 1) d) = m ((c : Thread nD τ).loc main_arg2) (ix1 d) := by
  refine (congrFun (V1_v1_eq m ρ c) _).trans ?_
  refine shapeCast_apply (s := S3072) (t := S1x3072) _ shapeCasts_S3072_S1x3072 (ix2 (0 : Fin 1) d) (ix1 d) ?_
  rw [Shape.rowMajor_val_one, Shape.rowMajor_val_two]
  show d.val = 0 * 3072 + d.val
  omega

/-- The two reshapes leave the first weight argument as launched. -/
theorem V1_arg1 : V1 m ρ c main_arg1 = m ((c : Thread nD τ).loc main_arg1) :=
  StableHlo.after_of_writes_sub hostOps0 (W0 m ρ c) hostOps0_writes (by decide)

/-! ## Before the third region -/

/-- The second bias argument reaches the third stretch as launched: no reshape and no region before it writes it. -/
theorem V3_arg4 : V3 m ρ c main_arg4 = m ((c : Thread nD τ).loc main_arg4) :=
  (W3_of_ne m ρ c main_arg4 (by decide)).trans
    ((hrest0 m ρ c main_arg4 (by decide)).trans
      (StableHlo.after_of_writes_sub hostOps0 (W0 m ρ c) hostOps0_writes (by decide)))

/-- So does the second weight argument. -/
theorem V3_arg3 : V3 m ρ c main_arg3 = m ((c : Thread nD τ).loc main_arg3) :=
  (W3_of_ne m ρ c main_arg3 (by decide)).trans
    ((hrest0 m ρ c main_arg3 (by decide)).trans
      (StableHlo.after_of_writes_sub hostOps0 (W0 m ρ c) hostOps0_writes (by decide)))

/-- The second bias as one row is the reshape of the bias argument as the stretch finds it. -/
theorem V4_v4_eq :
    (V4 m ρ c main_v4 : S1x1024.Idx → EReal)
      = shapeCast S1x1024 (V3 m ρ c main_arg4 : S1024.Idx → EReal) shapeCasts_S1024_S1x1024 := by
  dsimp only [V4, W4, hostOps2]
  after_results
  rfl

/-- Entry `d` of the one row is entry `d` of the second bias. -/
theorem V4_v4_at (d : Fin 1024) :
    V4 m ρ c main_v4 (ix2 (0 : Fin 1) d) = m ((c : Thread nD τ).loc main_arg4) (ix1 d) := by
  refine (congrFun (V4_v4_eq m ρ c) _).trans ?_
  refine (shapeCast_apply (s := S1024) (t := S1x1024) _ shapeCasts_S1024_S1x1024 (ix2 (0 : Fin 1) d) (ix1 d) ?_).trans
    (congrFun (V3_arg4 m ρ c) _)
  rw [Shape.rowMajor_val_one, Shape.rowMajor_val_two]
  show d.val = 0 * 1024 + d.val
  omega

/-- The reshape leaves the attention result where the second region put it. -/
theorem V4_v3 : V4 m ρ c main_v3 = V3 m ρ c main_v3 :=
  StableHlo.after_of_writes_sub hostOps2 (W3 m ρ c) hostOps2_writes (by decide)

/-- The second weight argument reaches the third region as launched. -/
theorem V4_arg3 : V4 m ρ c main_arg3 = m ((c : Thread nD τ).loc main_arg3) :=
  (StableHlo.after_of_writes_sub hostOps2 (W3 m ρ c) hostOps2_writes (by decide)).trans (V3_arg3 m ρ c)

/-! ## After the third region -/

/-- The result array is the reshape of what the third region leaves. -/
theorem W6_v6_eq :
    (W6 m ρ c (Proc.devRef .tc main_v6) : S2x2048x1024.Idx → EReal)
      = shapeCast S2x2048x1024 (V5 m ρ c main_v5 : S4096x1024.Idx → EReal) shapeCasts_S4096x1024_S2x2048x1024 := by
  dsimp only [W6, hostOps3]
  after_results
  rfl

/-- Position `t` of batch entry `b` of the result is row `b·2048 + t` of what the third region leaves. -/
theorem W6_v6_at (b : Fin 2) (t : Fin 2048) (d : Fin 1024) :
    W6 m ρ c (Proc.devRef .tc main_v6) (ix3 b t d) = V5 m ρ c main_v5 (ix2 (Cert.Attn.row b t) d) := by
  refine (congrFun (W6_v6_eq m ρ c) _).trans ?_
  refine shapeCast_apply (s := S4096x1024) (t := S2x2048x1024) _ shapeCasts_S4096x1024_S2x2048x1024
    (ix3 b t d) (ix2 (Cert.Attn.row b t) d) ?_
  rw [Shape.rowMajor_val_three, Shape.rowMajor_val_two]
  rfl

end Cert.KernelIdeal.Hand

end
-- ==== Proof.Final0.lean ====
/-
  The first pallas_call (the fused query/key/value projection), from blocks to the array.

  Point (i, j) of the 8 × 3 grid reads rows 512·i … 512·i + 511 of the flattened input, rows 1024·j … 1024·j + 1023 of
  the weight matrix and columns 1024·j … 1024·j + 1023 of the bias row, and writes back block (i, j) of the output. With
  the body's result read at an index of its block as a contraction plus the bias (the hypothesis `hpay`), what every
  point writes back is its block of ONE function of the three arrays: at row r and column d, the sum over k of
  input(r, k) · weight(d, k), plus bias(0, d). The 24 blocks tile the output, so the output array ends holding that
  function.
-/
import proofs.«180047_j69148973466281_2_alg».proof.Proof.IdealRegion0
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section
variable (V : (c : Dev nD) → (b : Ref sig .tc) → Buf (Elt Ideal) ((c : Thread nD τ).loc b))

theorem hz0 : (![0, 0] : Fin 2 → Nat) = fun _ => 0 := funext fun a => by fin_cases a <;> rfl

/-- Row `r` of `A` against row `d` of `W`, plus entry `d` of the bias row `B`. -/
def lin0 (A : S4096x1024.Idx → EReal) (W : S3072x1024.Idx → EReal) (B : S1x3072.Idx → EReal) (r : Fin 4096) (d : Fin 3072) : EReal :=
  (∑ k : Fin 1024, A (ix2 r k) * W (ix2 d k)) + B (ix2 (0 : Fin 1) d)

/-- The whole output array, from the three arrays as the region finds them. -/
def G0 (c : Dev nD) : S4096x3072.Idx → EReal := fun i =>
  lin0 (V c main_v0) (V c main_arg1) (V c main_v1) ⟨(i 0).val, (i 0).isLt⟩ ⟨(i 1).val, (i 1).isLt⟩

/-- The printed index maps, decided over the 24 points: the input blocks' indices from the output block's, and the
    output block's ranges. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 2 :=
  (by decide +kernel : ∀ t : Fin grid0.N, _)

/-- Every block of the output is some point's. -/
theorem idx_onto0 : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- An element of the input's block at point `t` is the array's element at block index × block size + its coordinate. -/
theorem iblk0_0_apply (c : Dev nD) (t : Fin cfg0.N) (y : S512x1024.Idx) (k : S4096x1024.Idx)
    (hk0 : (k 0).val = win0_0.index t (0 : Fin 2) * 512 + (y 0).val)
    (hk1 : (k 1).val = win0_0.index t (1 : Fin 2) * 1024 + (y 1).val) :
    (iblk0 V c 0 t : Vec Ideal S512x1024 .f32) y = (V c main_v0 : S4096x1024.Idx → Elt Ideal .f32) k := by
  unfold iblk0
  rw [View.read_apply]
  show V c main_v0 _ = V c main_v0 _
  congr 1
  funext a
  apply Fin.ext
  match a with
  | ⟨0, _⟩ => show win0_0.index t (0 : Fin 2) * 512 + 1 * (y 0).val = (k 0).val; rw [hk0]; omega
  | ⟨1, _⟩ => show win0_0.index t (1 : Fin 2) * 1024 + 1 * (y 1).val = (k 1).val; rw [hk1]; omega

/-- The same for the weight's block. -/
theorem iblk0_1_apply (c : Dev nD) (t : Fin cfg0.N) (y : S1024x1024.Idx) (k : S3072x1024.Idx)
    (hk0 : (k 0).val = win0_1.index t (0 : Fin 2) * 1024 + (y 0).val)
    (hk1 : (k 1).val = win0_1.index t (1 : Fin 2) * 1024 + (y 1).val) :
    (iblk0 V c 1 t : Vec Ideal S1024x1024 .f32) y = (V c main_arg1 : S3072x1024.Idx → Elt Ideal .f32) k := by
  unfold iblk0
  rw [View.read_apply]
  show V c main_arg1 _ = V c main_arg1 _
  congr 1
  funext a
  apply Fin.ext
  match a with
  | ⟨0, _⟩ => show win0_1.index t (0 : Fin 2) * 1024 + 1 * (y 0).val = (k 0).val; rw [hk0]; omega
  | ⟨1, _⟩ => show win0_1.index t (1 : Fin 2) * 1024 + 1 * (y 1).val = (k 1).val; rw [hk1]; omega

/-- The same for the bias row's block. -/
theorem iblk0_2_apply (c : Dev nD) (t : Fin cfg0.N) (y : S1x1024.Idx) (k : S1x3072.Idx)
    (hk0 : (k 0).val = win0_2.index t (0 : Fin 2) * 1 + (y 0).val)
    (hk1 : (k 1).val = win0_2.index t (1 : Fin 2) * 1024 + (y 1).val) :
    (iblk0 V c 2 t : Vec Ideal S1x1024 .f32) y = (V c main_v1 : S1x3072.Idx → Elt Ideal .f32) k := by
  unfold iblk0
  rw [View.read_apply]
  show V c main_v1 _ = V c main_v1 _
  congr 1
  funext a
  apply Fin.ext
  match a with
  | ⟨0, _⟩ => show win0_2.index t (0 : Fin 2) * 1 + 1 * (y 0).val = (k 0).val; rw [hk0]; omega
  | ⟨1, _⟩ => show win0_2.index t (1 : Fin 2) * 1024 + 1 * (y 1).val = (k 1).val; rw [hk1]; omega

/-- The body's result at (p, q) of its block, with the three blocks read where the output's block says: the projection at
    row `R` = 512 · (block row) + p and column `D` = 1024 · (block column) + q. -/
theorem pay0_blocks
    (hpay : ∀ (a : Vec Ideal S512x1024 .f32) (w : Vec Ideal S1024x1024 .f32) (bias : Vec Ideal S1x1024 .f32) (p : Fin 512) (q : Fin 1024),
      k0_pay1 (F := Ideal) a w bias (ix2 p q) = (∑ k : Fin 1024, a (ix2 p k) * w (ix2 q k)) + bias (ix2 (0 : Fin 1) q))
    (c : Dev nD) (t : Fin cfg0.N) (p : Fin 512) (q : Fin 1024) (R : Fin 4096) (D : Fin 3072)
    (hR : R.val = win0_3.index t (0 : Fin 2) * 512 + p.val) (hD : D.val = win0_3.index t (1 : Fin 2) * 1024 + q.val) :
    k0_pay1 (F := Ideal) (iblk0 V c 0 t) (iblk0 V c 1 t) (iblk0 V c 2 t) (ix2 p q)
      = lin0 (V c main_v0) (V c main_arg1) (V c main_v1) R D := by
  obtain ⟨e0, e1, e2, e3, e4, e5, -, -⟩ := idx_facts0 t
  refine (hpay _ _ _ p q).trans ?_
  unfold lin0
  refine congrArg₂ (· + ·) (Finset.sum_congr rfl fun k _ => congrArg₂ (· * ·) ?_ ?_) ?_
  · exact iblk0_0_apply V c t (ix2 p k) (ix2 R k)
      (by show R.val = win0_0.index t (0 : Fin 2) * 512 + p.val; omega)
      (by show k.val = win0_0.index t (1 : Fin 2) * 1024 + k.val; omega)
  · exact iblk0_1_apply V c t (ix2 q k) (ix2 D k)
      (by show D.val = win0_1.index t (0 : Fin 2) * 1024 + q.val; omega)
      (by show k.val = win0_1.index t (1 : Fin 2) * 1024 + k.val; omega)
  · exact iblk0_2_apply V c t (ix2 (0 : Fin 1) q) (ix2 (0 : Fin 1) D)
      (by show (0 : Fin 1).val = win0_2.index t (0 : Fin 2) * 1 + (0 : Fin 1).val; omega)
      (by show D.val = win0_2.index t (1 : Fin 2) * 1024 + q.val; omega)

/-- WHAT POINT `t` WRITES BACK is block `t` of `G0`. -/
theorem flushed0_eq
    (hpay : ∀ (a : Vec Ideal S512x1024 .f32) (w : Vec Ideal S1024x1024 .f32) (bias : Vec Ideal S1x1024 .f32) (p : Fin 512) (q : Fin 1024),
      k0_pay1 (F := Ideal) a w bias (ix2 p q) = (∑ k : Fin 1024, a (ix2 p k) * w (ix2 q k)) + bias (ix2 (0 : Fin 1) q))
    (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  funext j
  rw [View.read_apply]
  obtain ⟨-, -, -, -, -, -, b0, b1⟩ := idx_facts0 t
  have hj0 : (j 0).val < 512 := (j 0).isLt
  have hj1 : (j 1).val < 1024 := (j 1).isLt
  refine (congrArg (k0_pay1 (F := Ideal) (iblk0 V c 0 t) (iblk0 V c 1 t) (iblk0 V c 2 t)) (eq_ix2 (n0 := 512) (n1 := 1024) j)).trans ?_
  refine (pay0_blocks V hpay c t ⟨(j 0).val, hj0⟩ ⟨(j 1).val, hj1⟩
    ⟨win0_3.index t (0 : Fin 2) * 512 + (j 0).val, by omega⟩ ⟨win0_3.index t (1 : Fin 2) * 1024 + (j 1).val, by omega⟩ rfl rfl).trans ?_
  unfold G0
  refine congrArg₂ (lin0 (V c main_v0) (V c main_arg1) (V c main_v1)) (Fin.ext ?_) (Fin.ext ?_)
  · show win0_3.index t (0 : Fin 2) * 512 + (j 0).val = win0_3.index t (0 : Fin 2) * 512 + 1 * (j 0).val; omega
  · show win0_3.index t (1 : Fin 2) * 1024 + (j 1).val = win0_3.index t (1 : Fin 2) * 1024 + 1 * (j 1).val; omega

/-- An index of the array is in point `t`'s block iff each coordinate is in the block's range on its axis. -/
theorem mem_blk0 (t : Fin cfg0.N) (i : S4096x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- Every index of the output is in some point's block: row r, column d in block (r / 512, d / 1024). -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the run is `G0` of the three arrays as the region finds them. -/
theorem final0
    (hpay : ∀ (a : Vec Ideal S512x1024 .f32) (w : Vec Ideal S1024x1024 .f32) (bias : Vec Ideal S1x1024 .f32) (p : Fin 512) (q : Fin 1024),
      k0_pay1 (F := Ideal) a w bias (ix2 p q) = (∑ k : Fin 1024, a (ix2 p k) * w (ix2 q k)) + bias (ix2 (0 : Fin 1) q))
    (c : Dev nD) : (dat0 (F := Ideal) V c).arrAt 3 cfg0.N = G0 V c :=
  (dat0 (F := Ideal) V c).arrAt_eq_of_cover 3 (G0 V c) (fun t _ => flushed0_eq V hpay c t) cover0

end

/-- Read at row `r`, column `d`. -/
theorem final0_at
    (hpay : ∀ (a : Vec Ideal S512x1024 .f32) (w : Vec Ideal S1024x1024 .f32) (bias : Vec Ideal S1x1024 .f32) (p : Fin 512) (q : Fin 1024),
      k0_pay1 (F := Ideal) a w bias (ix2 p q) = (∑ k : Fin 1024, a (ix2 p k) * w (ix2 q k)) + bias (ix2 (0 : Fin 1) q))
    (V : (c : Dev nD) → (b : Ref sig .tc) → Buf (Elt Ideal) ((c : Thread nD τ).loc b)) (c : Dev nD) (r : Fin 4096) (d : Fin 3072) :
    (dat0 (F := Ideal) V c).arrAt 3 cfg0.N (ix2 r d) = lin0 (V c main_v0) (V c main_arg1) (V c main_v1) r d := by
  rw [final0 V hpay c]
  rfl

end Cert.KernelIdeal.Hand

end
-- ==== Proof.Final1.lean ====
/-
  The attention output array after the second pallas_call, as ONE function of the fused projection the region finds.
  Grid point (b, g, n) reads query rows (4b + n)·512 + p and the 2048 key/value rows of batch entry b, all in columns
  g·384 + x — the 384 columns of heads 2g and 2g + 1 —, and writes rows (4b + n)·512 + p, columns g·128 + c of the
  output: head 2g in the first 64 of them, head 2g + 1 in the last 64.  So the output at row r, column c is head c / 64's
  attention of row r over the rows of r's batch entry; the 64 points' blocks tile the array.
-/
import proofs.«180047_j69148973466281_2_alg».proof.Proof.IdealRegion1
import proofs.«180047_j69148973466281_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem hz1 : (![0, 0] : Fin 2 → Nat) = fun _ => 0 := funext fun a => by fin_cases a <;> rfl

/-- The printed index maps, decided over the grid: the query window moves with the output window; the key/value
    window has the output's column block and, as its row block, the batch entry of the output's row block. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2) / 4
    ∧ win1_1.index t (1 : Fin 2) = win1_2.index t (1 : Fin 2)
    ∧ win1_2.index t (0 : Fin 2) ≤ 7 ∧ win1_2.index t (1 : Fin 2) ≤ 7 :=
  (by decide +kernel : ∀ t : Fin grid1.N, _)

/-- Every block of the output array is SOME point's. -/
theorem idx_onto1 : ∀ (q0 : Fin 8) (q1 : Fin 8), ∃ t : Fin cfg1.N, win1_2.index t = ![q0.val, q1.val] :=
  (by decide +kernel : ∀ (q0 : Fin 8) (q1 : Fin 8), ∃ t : Fin grid1.N, win1_2.index t = ![q0.val, q1.val])

/-- Head `h`'s attention for row `r` of the fused projection `A`: the query is row `r`, the keys and values the
    2048 rows of `r`'s batch entry. -/
def attnAt (A : S4096x3072.Idx → EReal) (r : Fin 4096) (h : Fin 16) (e : Fin 64) : EReal :=
  Cert.Attn.attnRow (fun e' => A (ix2 r (Cert.Attn.col h 0 e')))
    (fun (j : Fin 2048) e' => A (ix2 (⟨r.val / 2048 * 2048 + j.val, by omega⟩ : Fin 4096) (Cert.Attn.col h 1 e')))
    (fun (j : Fin 2048) e' => A (ix2 (⟨r.val / 2048 * 2048 + j.val, by omega⟩ : Fin 4096) (Cert.Attn.col h 2 e'))) e

/-- What the attention output array ends holding: at row `r`, column `c` head `c / 64`'s feature `c % 64`. -/
def G1 (A : S4096x3072.Idx → EReal) : S4096x1024.Idx → EReal := fun i =>
  attnAt A ⟨(i 0).val, (i 0).isLt⟩ ⟨(i 1).val / 64, by have h : (i 1).val < 1024 := (i 1).isLt; omega⟩ ⟨(i 1).val % 64, Nat.mod_lt _ (by decide)⟩

variable (V : (c : Dev nD) → (b : Ref sig .tc) → Buf (Elt Ideal) ((c : Thread nD τ).loc b))

/-- `attnRow` depends on its rows only through their entries. -/
theorem attnRow_congr {n : ℕ} (q q' : Fin 64 → EReal) (k k' v v' : Fin n → Fin 64 → EReal) (e e' : Fin 64)
    (hq : ∀ x, q x = q' x) (hk : ∀ j x, k j x = k' j x) (hv : ∀ j x, v j x = v' j x) (he : e = e') :
    Cert.Attn.attnRow q k v e = Cert.Attn.attnRow q' k' v' e' := by
  have h1 : q = q' := funext hq
  have h2 : k = k' := funext fun j => funext (hk j)
  have h3 : v = v' := funext fun j => funext (hv j)
  rw [h1, h2, h3, he]

/-- The output function at row `R`, column `C`. -/
theorem G1_ix2 (A : S4096x3072.Idx → EReal) (R : Fin 4096) (C : Fin 1024) :
    G1 A (ix2 R C) = attnAt A R ⟨C.val / 64, by omega⟩ ⟨C.val % 64, Nat.mod_lt _ (by decide)⟩ := rfl

/-- ONE grid point: if the query block is rows `I0·512 + p`, columns `I1·384 + x` of the array `A` and the key/value
    block rows `(I0/4)·2048 + j`, columns `I1·384 + x`, the body's result at `(p, cl)` is the output function at row
    `I0·512 + p`, column `I1·128 + cl`: the two heads of the point are heads `2·I1` and `2·I1 + 1`, and the batch entry
    of the query rows is `I0 / 4`. -/
theorem block1_at
    (hpay : ∀ (qb : Vec Ideal S512x384 .bf16) (kv : Vec Ideal S2048x384 .bf16) (p : Fin 512) (g : Fin 2) (e : Fin 64),
      k1_pay1 (F := Ideal) qb kv (ix2 p (⟨g.val * 64 + e.val, by omega⟩ : Fin 128))
        = Cert.Attn.attnRow (fun e' => qb (ix2 p (⟨g.val * 192 + e'.val, by omega⟩ : Fin 384)))
            (fun j e' => kv (ix2 j (⟨g.val * 192 + 64 + e'.val, by omega⟩ : Fin 384)))
            (fun j e' => kv (ix2 j (⟨g.val * 192 + 128 + e'.val, by omega⟩ : Fin 384))) e)
    (qb : Vec Ideal S512x384 .bf16) (kv : Vec Ideal S2048x384 .bf16) (A : S4096x3072.Idx → EReal)
    (I0 I1 : ℕ) (hI0 : I0 ≤ 7) (hI1 : I1 ≤ 7)
    (hq : ∀ (p : Fin 512) (x : Fin 384), qb (ix2 p x) = A (ix2 (⟨I0 * 512 + p.val, by omega⟩ : Fin 4096) (⟨I1 * 384 + x.val, by omega⟩ : Fin 3072)))
    (hkv : ∀ (j : Fin 2048) (x : Fin 384), kv (ix2 j x) = A (ix2 (⟨I0 / 4 * 2048 + j.val, by omega⟩ : Fin 4096) (⟨I1 * 384 + x.val, by omega⟩ : Fin 3072)))
    (p : Fin 512) (cl : Fin 128) :
    k1_pay1 (F := Ideal) qb kv (ix2 p cl)
      = G1 A (ix2 (⟨I0 * 512 + p.val, by omega⟩ : Fin 4096) (⟨I1 * 128 + cl.val, by omega⟩ : Fin 1024)) := by
  have hcl : cl = (⟨(⟨cl.val / 64, by omega⟩ : Fin 2).val * 64 + (⟨cl.val % 64, Nat.mod_lt _ (by decide)⟩ : Fin 64).val, by omega⟩ : Fin 128) :=
    Fin.ext (by show cl.val = cl.val / 64 * 64 + cl.val % 64; omega)
  have hL : k1_pay1 (F := Ideal) qb kv (ix2 p cl)
      = k1_pay1 (F := Ideal) qb kv (ix2 p (⟨(⟨cl.val / 64, by omega⟩ : Fin 2).val * 64 + (⟨cl.val % 64, Nat.mod_lt _ (by decide)⟩ : Fin 64).val, by omega⟩ : Fin 128)) :=
    congrArg (fun z => k1_pay1 (F := Ideal) qb kv (ix2 p z)) hcl
  rw [G1_ix2]
  refine (hL.trans (hpay qb kv p ⟨cl.val / 64, by omega⟩ ⟨cl.val % 64, Nat.mod_lt _ (by decide)⟩)).trans ?_
  unfold attnAt
  refine attnRow_congr _ _ _ _ _ _ _ _ (fun x => ?_) (fun j x => ?_) (fun j x => ?_) (Fin.ext ?_)
  · rw [hq]
    refine congrArg A ?_
    have hc : (⟨I1 * 384 + (⟨cl.val / 64 * 192 + x.val, by omega⟩ : Fin 384).val, by omega⟩ : Fin 3072)
        = Cert.Attn.col ⟨(I1 * 128 + cl.val) / 64, by omega⟩ 0 x := Fin.ext (by
      show I1 * 384 + (cl.val / 64 * 192 + x.val) = (I1 * 128 + cl.val) / 64 * 192 + 0 * 64 + x.val
      omega)
    exact congrArg₂ (ix2 (n0 := 4096) (n1 := 3072)) rfl hc
  · rw [hkv]
    refine congrArg A ?_
    have hr : (⟨I0 / 4 * 2048 + j.val, by omega⟩ : Fin 4096) = ⟨(I0 * 512 + p.val) / 2048 * 2048 + j.val, by omega⟩ :=
      Fin.ext (by show I0 / 4 * 2048 + j.val = (I0 * 512 + p.val) / 2048 * 2048 + j.val; omega)
    have hc : (⟨I1 * 384 + (⟨cl.val / 64 * 192 + 64 + x.val, by omega⟩ : Fin 384).val, by omega⟩ : Fin 3072)
        = Cert.Attn.col ⟨(I1 * 128 + cl.val) / 64, by omega⟩ 1 x := Fin.ext (by
      show I1 * 384 + (cl.val / 64 * 192 + 64 + x.val) = (I1 * 128 + cl.val) / 64 * 192 + 1 * 64 + x.val
      omega)
    exact congrArg₂ (ix2 (n0 := 4096) (n1 := 3072)) hr hc
  · rw [hkv]
    refine congrArg A ?_
    have hr : (⟨I0 / 4 * 2048 + j.val, by omega⟩ : Fin 4096) = ⟨(I0 * 512 + p.val) / 2048 * 2048 + j.val, by omega⟩ :=
      Fin.ext (by show I0 / 4 * 2048 + j.val = (I0 * 512 + p.val) / 2048 * 2048 + j.val; omega)
    have hc : (⟨I1 * 384 + (⟨cl.val / 64 * 192 + 128 + x.val, by omega⟩ : Fin 384).val, by omega⟩ : Fin 3072)
        = Cert.Attn.col ⟨(I1 * 128 + cl.val) / 64, by omega⟩ 2 x := Fin.ext (by
      show I1 * 384 + (cl.val / 64 * 192 + 128 + x.val) = (I1 * 128 + cl.val) / 64 * 192 + 2 * 64 + x.val
      omega)
    exact congrArg₂ (ix2 (n0 := 4096) (n1 := 3072)) hr hc
  · show cl.val % 64 = (I1 * 128 + cl.val) % 64
    omega

/-- WHAT POINT `t` WRITES BACK is block `t` of the output function of the fused projection as the region finds it. -/
theorem flushed1_eq
    (hpay : ∀ (qb : Vec Ideal S512x384 .bf16) (kv : Vec Ideal S2048x384 .bf16) (p : Fin 512) (g : Fin 2) (e : Fin 64),
      k1_pay1 (F := Ideal) qb kv (ix2 p (⟨g.val * 64 + e.val, by omega⟩ : Fin 128))
        = Cert.Attn.attnRow (fun e' => qb (ix2 p (⟨g.val * 192 + e'.val, by omega⟩ : Fin 384)))
            (fun j e' => kv (ix2 j (⟨g.val * 192 + 64 + e'.val, by omega⟩ : Fin 384)))
            (fun j e' => kv (ix2 j (⟨g.val * 192 + 128 + e'.val, by omega⟩ : Fin 384))) e)
    (c : Dev nD) (t : Fin cfg1.N) :
    (dat1 (F := Ideal) V c).flushed 2 t = ((cfg1.win 2).blk t).view.read (Elt Ideal) (G1 (V c main_v2)) := by
  show (cfg1.win 2).cut (grid1.coords t) ((dat1 V c).after 2 t) = _
  rw [after1_2]
  unfold out1_2
  rw [View.canon_unit_zero hz1]
  simp only [View.ld_unit_zero (S := S512x384) hz1, View.ld_unit_zero (S := S2048x384) hz1]
  obtain ⟨e0, e1, e2, e3, e4, e5⟩ := idx_facts1 t
  funext y
  revert y
  show ∀ y : S512x128.Idx, k1_pay1 (F := Ideal) (iblk1 V c 0 t) (iblk1 V c 1 t) y = G1 (V c main_v2) (((cfg1.win 2).blk t).view.emb y)
  intro y
  obtain ⟨p, cl, rfl⟩ : ∃ (p : Fin 512) (cl : Fin 128), y = ix2 p cl := ⟨y 0, y 1, eq_ix2 y⟩
  refine (block1_at hpay (iblk1 V c 0 t) (iblk1 V c 1 t) (V c main_v2) (win1_2.index t (0 : Fin 2)) (win1_2.index t (1 : Fin 2)) e4 e5 ?_ ?_ p cl).trans ?_
  · intro p x
    show V c main_v2 (((cfg1.win 0).blk t).view.emb (ix2 p x)) = _
    refine congrArg (V c main_v2) ?_
    funext a; apply Fin.ext
    match a with
    | ⟨0, _⟩ => show win1_0.index t (0 : Fin 2) * 512 + 1 * p.val = win1_2.index t (0 : Fin 2) * 512 + p.val; omega
    | ⟨1, _⟩ => show win1_0.index t (1 : Fin 2) * 384 + 1 * x.val = win1_2.index t (1 : Fin 2) * 384 + x.val; omega
  · intro j x
    show V c main_v2 (((cfg1.win 1).blk t).view.emb (ix2 j x)) = _
    refine congrArg (V c main_v2) ?_
    funext a; apply Fin.ext
    match a with
    | ⟨0, _⟩ => show win1_1.index t (0 : Fin 2) * 2048 + 1 * j.val = win1_2.index t (0 : Fin 2) / 4 * 2048 + j.val; omega
    | ⟨1, _⟩ => show win1_1.index t (1 : Fin 2) * 384 + 1 * x.val = win1_2.index t (1 : Fin 2) * 384 + x.val; omega
  · refine congrArg (G1 (V c main_v2)) ?_
    funext a; apply Fin.ext
    match a with
    | ⟨0, _⟩ => show win1_2.index t (0 : Fin 2) * 512 + p.val = win1_2.index t (0 : Fin 2) * 512 + 1 * p.val; omega
    | ⟨1, _⟩ => show win1_2.index t (1 : Fin 2) * 128 + cl.val = win1_2.index t (1 : Fin 2) * 128 + 1 * cl.val; omega

/-- An index of the output array is in point `t`'s block iff each coordinate is in the block's range on its axis. -/
theorem mem_blk1 (t : Fin cfg1.N) (i : S4096x1024.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v3).slice (win1_2.rect t)).set ↔ _
  rw [View.set_slice_whole, Rect.mem_set_unit]
  exact Iff.rfl

/-- Every index of the output array is in some point's block: the point with block index (row / 512, column / 128). -/
theorem cover1 (i : S4096x1024.Idx) : ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ := idx_onto1 ⟨(i 0).val / 512, by omega⟩ ⟨(i 1).val / 128, by omega⟩
  have q0 : win1_2.index t (0 : Fin 2) = (i 0).val / 512 := congrFun ht 0
  have q1 : win1_2.index t (1 : Fin 2) = (i 1).val / 128 := congrFun ht 1
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 128 ≤ (i 1).val ∧ (i 1).val < win1_2.index t (1 : Fin 2) * 128 + 128; omega

/-- THE ATTENTION OUTPUT ARRAY after the second pallas_call: the output function of the fused projection as found. -/
theorem final1
    (hpay : ∀ (qb : Vec Ideal S512x384 .bf16) (kv : Vec Ideal S2048x384 .bf16) (p : Fin 512) (g : Fin 2) (e : Fin 64),
      k1_pay1 (F := Ideal) qb kv (ix2 p (⟨g.val * 64 + e.val, by omega⟩ : Fin 128))
        = Cert.Attn.attnRow (fun e' => qb (ix2 p (⟨g.val * 192 + e'.val, by omega⟩ : Fin 384)))
            (fun j e' => kv (ix2 j (⟨g.val * 192 + 64 + e'.val, by omega⟩ : Fin 384)))
            (fun j e' => kv (ix2 j (⟨g.val * 192 + 128 + e'.val, by omega⟩ : Fin 384))) e)
    (c : Dev nD) : (dat1 (F := Ideal) V c).arrAt 2 cfg1.N = G1 (V c main_v2) :=
  (dat1 V c).arrAt_eq_of_cover 2 (G1 (V c main_v2)) (fun t _ => flushed1_eq V hpay c t) cover1

/-- …read at row `r` and head `h`'s column of feature `e`. -/
theorem final1_at
    (hpay : ∀ (qb : Vec Ideal S512x384 .bf16) (kv : Vec Ideal S2048x384 .bf16) (p : Fin 512) (g : Fin 2) (e : Fin 64),
      k1_pay1 (F := Ideal) qb kv (ix2 p (⟨g.val * 64 + e.val, by omega⟩ : Fin 128))
        = Cert.Attn.attnRow (fun e' => qb (ix2 p (⟨g.val * 192 + e'.val, by omega⟩ : Fin 384)))
            (fun j e' => kv (ix2 j (⟨g.val * 192 + 64 + e'.val, by omega⟩ : Fin 384)))
            (fun j e' => kv (ix2 j (⟨g.val * 192 + 128 + e'.val, by omega⟩ : Fin 384))) e)
    (c : Dev nD) (r : Fin 4096) (h : Fin 16) (e : Fin 64) :
    (dat1 (F := Ideal) V c).arrAt 2 cfg1.N (ix2 r (Cert.Attn.hcol h e)) = attnAt (V c main_v2) r h e := by
  rw [final1 V hpay c, G1_ix2]
  have h1 : (⟨(Cert.Attn.hcol h e).val / 64, by have := (Cert.Attn.hcol h e).isLt; omega⟩ : Fin 16) = h :=
    Fin.ext (by show (h.val * 64 + e.val) / 64 = h.val; omega)
  have h2 : (⟨(Cert.Attn.hcol h e).val % 64, Nat.mod_lt _ (by decide)⟩ : Fin 64) = e :=
    Fin.ext (by show (h.val * 64 + e.val) % 64 = e.val; omega)
  rw [h1, h2]

end Cert.KernelIdeal.Hand

end
-- ==== Proof.Final2.lean ====
/-
  The third pallas_call (the output projection), from blocks to the array.

  Point (i, 0) of the 8 × 1 grid reads rows 512·i … 512·i + 511 of the concatenated heads, the whole weight matrix and the
  whole bias row, and writes back block (i, 0) of the output. With the body's result read at an index of its block as a
  contraction plus the bias (the hypothesis `hpay`), what every point writes back is its block of ONE function of the
  three arrays: at row r and column d, the sum over k of input(r, k) · weight(d, k), plus bias(0, d). The 8 blocks tile
  the output, so the output array ends holding that function.
-/
import proofs.«180047_j69148973466281_2_alg».proof.Proof.IdealRegion2
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section
variable (V : (c : Dev nD) → (b : Ref sig .tc) → Buf (Elt Ideal) ((c : Thread nD τ).loc b))

theorem hz2 : (![0, 0] : Fin 2 → Nat) = fun _ => 0 := funext fun a => by fin_cases a <;> rfl

/-- Row `r` of `A` against row `d` of `W`, plus entry `d` of the bias row `B`. -/
def lin2 (A : S4096x1024.Idx → EReal) (W : S1024x1024.Idx → EReal) (B : S1x1024.Idx → EReal) (r : Fin 4096) (d : Fin 1024) : EReal :=
  (∑ k : Fin 1024, A (ix2 r k) * W (ix2 d k)) + B (ix2 (0 : Fin 1) d)

/-- The whole output array, from the three arrays as the region finds them. -/
def G2 (c : Dev nD) : S4096x1024.Idx → EReal := fun i =>
  lin2 (V c main_v3) (V c main_arg3) (V c main_v4) ⟨(i 0).val, (i 0).isLt⟩ ⟨(i 1).val, (i 1).isLt⟩

/-- The printed index maps, decided over the 8 points: the input blocks' indices from the output block's, and the
    output block's ranges. -/
theorem idx_facts2 : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7 ∧ win2_3.index t (1 : Fin 2) ≤ 0 :=
  (by decide +kernel : ∀ t : Fin grid2.N, _)

/-- Every block of the output is some point's. -/
theorem idx_onto2 : ∀ (q0 : Fin 8) (q1 : Fin 1), ∃ t : Fin cfg2.N, win2_3.index t = ![q0.val, q1.val] :=
  (by decide +kernel : ∀ (q0 : Fin 8) (q1 : Fin 1), ∃ t : Fin grid2.N, win2_3.index t = ![q0.val, q1.val])

/-- An element of the input's block at point `t` is the array's element at block index × block size + its coordinate. -/
theorem iblk2_0_apply (c : Dev nD) (t : Fin cfg2.N) (y : S512x1024.Idx) (k : S4096x1024.Idx)
    (hk0 : (k 0).val = win2_0.index t (0 : Fin 2) * 512 + (y 0).val)
    (hk1 : (k 1).val = win2_0.index t (1 : Fin 2) * 1024 + (y 1).val) :
    (iblk2 V c 0 t : Vec Ideal S512x1024 .bf16) y = (V c main_v3 : S4096x1024.Idx → Elt Ideal .bf16) k := by
  unfold iblk2
  rw [View.read_apply]
  show V c main_v3 _ = V c main_v3 _
  congr 1
  funext a
  apply Fin.ext
  match a with
  | ⟨0, _⟩ => show win2_0.index t (0 : Fin 2) * 512 + 1 * (y 0).val = (k 0).val; rw [hk0]; omega
  | ⟨1, _⟩ => show win2_0.index t (1 : Fin 2) * 1024 + 1 * (y 1).val = (k 1).val; rw [hk1]; omega

/-- The same for the weight's block. -/
theorem iblk2_1_apply (c : Dev nD) (t : Fin cfg2.N) (y : S1024x1024.Idx) (k : S1024x1024.Idx)
    (hk0 : (k 0).val = win2_1.index t (0 : Fin 2) * 1024 + (y 0).val)
    (hk1 : (k 1).val = win2_1.index t (1 : Fin 2) * 1024 + (y 1).val) :
    (iblk2 V c 1 t : Vec Ideal S1024x1024 .f32) y = (V c main_arg3 : S1024x1024.Idx → Elt Ideal .f32) k := by
  unfold iblk2
  rw [View.read_apply]
  show V c main_arg3 _ = V c main_arg3 _
  congr 1
  funext a
  apply Fin.ext
  match a with
  | ⟨0, _⟩ => show win2_1.index t (0 : Fin 2) * 1024 + 1 * (y 0).val = (k 0).val; rw [hk0]; omega
  | ⟨1, _⟩ => show win2_1.index t (1 : Fin 2) * 1024 + 1 * (y 1).val = (k 1).val; rw [hk1]; omega

/-- The same for the bias row's block. -/
theorem iblk2_2_apply (c : Dev nD) (t : Fin cfg2.N) (y : S1x1024.Idx) (k : S1x1024.Idx)
    (hk0 : (k 0).val = win2_2.index t (0 : Fin 2) * 1 + (y 0).val)
    (hk1 : (k 1).val = win2_2.index t (1 : Fin 2) * 1024 + (y 1).val) :
    (iblk2 V c 2 t : Vec Ideal S1x1024 .f32) y = (V c main_v4 : S1x1024.Idx → Elt Ideal .f32) k := by
  unfold iblk2
  rw [View.read_apply]
  show V c main_v4 _ = V c main_v4 _
  congr 1
  funext a
  apply Fin.ext
  match a with
  | ⟨0, _⟩ => show win2_2.index t (0 : Fin 2) * 1 + 1 * (y 0).val = (k 0).val; rw [hk0]; omega
  | ⟨1, _⟩ => show win2_2.index t (1 : Fin 2) * 1024 + 1 * (y 1).val = (k 1).val; rw [hk1]; omega

/-- The body's result at (p, q) of its block, with the three blocks read where the output's block says: the projection at
    row `R` = 512 · (block row) + p and column `D` = 1024 · (block column) + q (the block column is 0). -/
theorem pay2_blocks
    (hpay : ∀ (a : Vec Ideal S512x1024 .bf16) (w : Vec Ideal S1024x1024 .f32) (bias : Vec Ideal S1x1024 .f32) (p : Fin 512) (q : Fin 1024),
      k2_pay1 (F := Ideal) a w bias (ix2 p q) = (∑ k : Fin 1024, a (ix2 p k) * w (ix2 q k)) + bias (ix2 (0 : Fin 1) q))
    (c : Dev nD) (t : Fin cfg2.N) (p : Fin 512) (q : Fin 1024) (R : Fin 4096) (D : Fin 1024)
    (hR : R.val = win2_3.index t (0 : Fin 2) * 512 + p.val) (hD : D.val = win2_3.index t (1 : Fin 2) * 1024 + q.val) :
    k2_pay1 (F := Ideal) (iblk2 V c 0 t) (iblk2 V c 1 t) (iblk2 V c 2 t) (ix2 p q)
      = lin2 (V c main_v3) (V c main_arg3) (V c main_v4) R D := by
  obtain ⟨e0, e1, e2, e3, e4, e5, -, -⟩ := idx_facts2 t
  refine (hpay _ _ _ p q).trans ?_
  unfold lin2
  refine congrArg₂ (· + ·) (Finset.sum_congr rfl fun k _ => congrArg₂ (· * ·) ?_ ?_) ?_
  · exact iblk2_0_apply V c t (ix2 p k) (ix2 R k)
      (by show R.val = win2_0.index t (0 : Fin 2) * 512 + p.val; omega)
      (by show k.val = win2_0.index t (1 : Fin 2) * 1024 + k.val; omega)
  · exact iblk2_1_apply V c t (ix2 q k) (ix2 D k)
      (by show D.val = win2_1.index t (0 : Fin 2) * 1024 + q.val; omega)
      (by show k.val = win2_1.index t (1 : Fin 2) * 1024 + k.val; omega)
  · exact iblk2_2_apply V c t (ix2 (0 : Fin 1) q) (ix2 (0 : Fin 1) D)
      (by show (0 : Fin 1).val = win2_2.index t (0 : Fin 2) * 1 + (0 : Fin 1).val; omega)
      (by show D.val = win2_2.index t (1 : Fin 2) * 1024 + q.val; omega)

/-- WHAT POINT `t` WRITES BACK is block `t` of `G2`. -/
theorem flushed2_eq
    (hpay : ∀ (a : Vec Ideal S512x1024 .bf16) (w : Vec Ideal S1024x1024 .f32) (bias : Vec Ideal S1x1024 .f32) (p : Fin 512) (q : Fin 1024),
      k2_pay1 (F := Ideal) a w bias (ix2 p q) = (∑ k : Fin 1024, a (ix2 p k) * w (ix2 q k)) + bias (ix2 (0 : Fin 1) q))
    (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  funext j
  rw [View.read_apply]
  obtain ⟨-, -, -, -, -, -, b0, b1⟩ := idx_facts2 t
  have hj0 : (j 0).val < 512 := (j 0).isLt
  have hj1 : (j 1).val < 1024 := (j 1).isLt
  refine (congrArg (k2_pay1 (F := Ideal) (iblk2 V c 0 t) (iblk2 V c 1 t) (iblk2 V c 2 t)) (eq_ix2 (n0 := 512) (n1 := 1024) j)).trans ?_
  refine (pay2_blocks V hpay c t ⟨(j 0).val, hj0⟩ ⟨(j 1).val, hj1⟩
    ⟨win2_3.index t (0 : Fin 2) * 512 + (j 0).val, by omega⟩ ⟨win2_3.index t (1 : Fin 2) * 1024 + (j 1).val, by omega⟩ rfl rfl).trans ?_
  unfold G2
  refine congrArg₂ (lin2 (V c main_v3) (V c main_arg3) (V c main_v4)) (Fin.ext ?_) (Fin.ext ?_)
  · show win2_3.index t (0 : Fin 2) * 512 + (j 0).val = win2_3.index t (0 : Fin 2) * 512 + 1 * (j 0).val; omega
  · show win2_3.index t (1 : Fin 2) * 1024 + (j 1).val = win2_3.index t (1 : Fin 2) * 1024 + 1 * (j 1).val; omega

/-- An index of the array is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v5).slice (win2_3.rect t)).set ↔ _
  rw [View.set_slice_whole, Rect.mem_set_unit]
  exact Iff.rfl

/-- Every index of the output is in some point's block: row r, column d in block (r / 512, d / 1024 = 0). -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE ARRAY after the run is `G2` of the three arrays as the region finds them. -/
theorem final2
    (hpay : ∀ (a : Vec Ideal S512x1024 .bf16) (w : Vec Ideal S1024x1024 .f32) (bias : Vec Ideal S1x1024 .f32) (p : Fin 512) (q : Fin 1024),
      k2_pay1 (F := Ideal) a w bias (ix2 p q) = (∑ k : Fin 1024, a (ix2 p k) * w (ix2 q k)) + bias (ix2 (0 : Fin 1) q))
    (c : Dev nD) : (dat2 (F := Ideal) V c).arrAt 3 cfg2.N = G2 V c :=
  (dat2 (F := Ideal) V c).arrAt_eq_of_cover 3 (G2 V c) (fun t _ => flushed2_eq V hpay c t) cover2

end

/-- Read at row `r`, column `d`. -/
theorem final2_at
    (hpay : ∀ (a : Vec Ideal S512x1024 .bf16) (w : Vec Ideal S1024x1024 .f32) (bias : Vec Ideal S1x1024 .f32) (p : Fin 512) (q : Fin 1024),
      k2_pay1 (F := Ideal) a w bias (ix2 p q) = (∑ k : Fin 1024, a (ix2 p k) * w (ix2 q k)) + bias (ix2 (0 : Fin 1) q))
    (V : (c : Dev nD) → (b : Ref sig .tc) → Buf (Elt Ideal) ((c : Thread nD τ).loc b)) (c : Dev nD) (r : Fin 4096) (d : Fin 1024) :
    (dat2 (F := Ideal) V c).arrAt 3 cfg2.N (ix2 r d) = lin2 (V c main_v3) (V c main_arg3) (V c main_v4) r d := by
  rw [final2 V hpay c]
  rfl

end Cert.KernelIdeal.Hand

end
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.Pay0.lean ====
/-
  The first projection's block read at an index: the rows of the input block against the rows of the weight block
  (a product A · Bᵀ accumulated from zero), plus the bias row spread over the block's rows. Every change of format
  is the identity on the extended reals.
-/
import proofs.«180047_j69148973466281_2_alg».proof.Proof.Gen.KernelIdeal.Skeleton
import proofs.«180047_j69148973466281_2_alg».proof.Proof.Spec
import proofs.«180047_j69148973466281_2_alg».proof.Proof.LibRowOps
import Idealize.ShloMosaic.Lib.ValueLayout

noncomputable section

open scoped BigOperators

namespace Cert.Attn.Pay

open Idealize.ShloMosaic Idealize.ShloMosaic.ValueIdx Cert.KernelIdeal Cert.KernelIdeal.Gen

/-- Entry `(p, q)` of the projected block: `∑ₖ a (p, k) * w (q, k)` plus the bias at `q`. -/
theorem pay0_apply (a : Vec Ideal S512x1024 .f32) (w : Vec Ideal S1024x1024 .f32) (bias : Vec Ideal S1x1024 .f32)
    (p : Fin 512) (q : Fin 1024) :
    k0_pay1 (F := Ideal) a w bias (ix2 p q)
      = (∑ k : Fin 1024, a (ix2 p k) * w (ix2 q k)) + bias (ix2 (0 : Fin 1) q) := by
  unfold k0_pay1
  simp only [shapeCast_self]
  rw [truncf_apply, addf_apply]
  refine congrArg₂ (· + ·) ?_ ?_
  · refine (Cert.LibRowOps.matmul_zero_rows_ix2 dot_S512x1024_S1024x1024_S512x1024_1_1_0_0_n_n rfl rfl rfl rfl rfl rfl
      none _ _ p q).trans ?_
    rfl
  · exact broadcastTo_1b_ab_apply bias broadcasts_S1x1024_S512x1024 p q

end Cert.Attn.Pay

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Pay1Head.lean ====
/-
  One head of the attention block, read at an index.

  From a query block `q` of 512 rows and key / value blocks `k`, `v` of 2048 rows (64 features each) a head computes
  the scores q · kᵀ times the scale, each row's maximum, the exponentials of the differences, each row's sum of
  them, the quotients, and the quotient-weighted sum of the value rows. Read at row `p` and feature `e` this is
  the specification's `attnRow` of row `p` of `q` against all rows of `k` and `v`.

  * `rowMax_apply`, `rowSum_apply`: a row maximum (from -∞) or a row sum put back beside its row, read at an entry;
  * `scores_apply`: the scaled scores at an entry;
  * `head_apply`: the head at an entry.
-/
import proofs.«180047_j69148973466281_2_alg».proof.Proof.Gen.KernelIdeal.Skeleton
import proofs.«180047_j69148973466281_2_alg».proof.Proof.Spec
import proofs.«180047_j69148973466281_2_alg».proof.Proof.LibRowOps
import proofs.«180047_j69148973466281_2_alg».proof.Proof.LibBlock
import proofs.«180047_j69148973466281_2_alg».proof.Proof.LibRowSum
import proofs.«180047_j69148973466281_2_alg».proof.Proof.LibColumn

noncomputable section

open scoped BigOperators

namespace Cert.Attn.Pay

open Idealize.ShloMosaic Idealize.ShloMosaic.ValueIdx Cert.KernelIdeal Cert.KernelIdeal.Gen

/-- The row maxima of a `[512, 2048]` block, folded from -∞, laid out as a column and spread back over the lanes:
    at `(p, j)` the maximum of row `p`. -/
theorem rowMax_apply (s : FVec Ideal S512x2048 .f32) (p : Fin 512) (j : Fin 2048) :
    broadcastTo S512x2048
        (shapeCast S512x1
          (multiReduction (F := Ideal) .maximumf [1] S512 s 0xFF800000#32 reduces_S512x2048_S512 (.inl rfl) rfl)
          shapeCasts_S512_S512x1)
        broadcasts_S512x1_S512x2048 (ix2 p j)
      = (Finset.univ : Finset (Fin 2048)).fold max negInf (fun k => s (ix2 p k)) :=
  (Cert.LibColumn.broadcastTo_a1_ab_apply _ broadcasts_S512x1_S512x2048 p j).trans
    ((Cert.LibColumn.shapeCast_a_a1_apply _ shapeCasts_S512_S512x1 p (0 : Fin 1)).trans
      (Cert.LibRowOps.multiReduction_maximumf_lanes_apply s 0xFF800000#32 reduces_S512x2048_S512 (.inl rfl) rfl p))

/-- The row sums of a `[512, 2048]` block, laid out as a column and spread back over the lanes: at `(p, j)` the sum
    of row `p`. -/
theorem rowSum_apply (s : FVec Ideal S512x2048 .f32) (p : Fin 512) (j : Fin 2048) :
    broadcastTo S512x2048
        (shapeCast S512x1
          (multiReduction (F := Ideal) .add [1] S512 s 0x00000000#32 reduces_S512x2048_S512 (.inl rfl) rfl)
          shapeCasts_S512_S512x1)
        broadcasts_S512x1_S512x2048 (ix2 p j)
      = ∑ k : Fin 2048, s (ix2 p k) :=
  (Cert.LibColumn.broadcastTo_a1_ab_apply _ broadcasts_S512x1_S512x2048 p j).trans
    ((Cert.LibColumn.shapeCast_a_a1_apply _ shapeCasts_S512_S512x1 p (0 : Fin 1)).trans
      (Cert.LibRowSum.multiReduction_add_lanes_apply s 0x00000000#32 reduces_S512x2048_S512 (.inl rfl) rfl p))

/-- An exponential at an index is the exponential of the element. -/
theorem exp_apply {s : Shape} {φ : FTy} (a : FVec Ideal s φ) (i : s.Idx) : exp a i = Ideal.exp (a i) := rfl

/-- The scaled scores of a head: rows of `q` against rows of `k`, times the scale. -/
def scores (q : FVec Ideal S512x64 .bf16) (k : FVec Ideal S2048x64 .bf16) : FVec Ideal S512x2048 .f32 :=
  mulf (matmul dot_S512x64_S2048x64_S512x2048_1_1_0_0_n_n none q k (constant (F := Ideal) S512x2048 .f32 0x00000000#32))
    (broadcast S512x2048 (Scalar.ofBits (F := Ideal) .f32 0x3D000000#32))

/-- Entry `(p, j)` of the scaled scores: `(∑ₑ q (p, e) * k (j, e)) * scale`. -/
theorem scores_apply (q : FVec Ideal S512x64 .bf16) (k : FVec Ideal S2048x64 .bf16) (p : Fin 512) (j : Fin 2048) :
    scores q k (ix2 p j) = (∑ e' : Fin 64, q (ix2 p e') * k (ix2 j e')) * scale := by
  unfold scores
  rw [mulf_apply, broadcast_apply]
  refine congrArg₂ (· * ·) ?_ rfl
  exact Cert.LibRowOps.matmul_zero_rows_ix2 dot_S512x64_S2048x64_S512x2048_1_1_0_0_n_n rfl rfl rfl rfl rfl rfl
    none q k p j

/-- One head: the softmax of the scaled scores along each row, applied to the value rows. -/
def head (q : FVec Ideal S512x64 .bf16) (k v : FVec Ideal S2048x64 .bf16) : FVec Ideal S512x64 .bf16 :=
  have s : FVec Ideal S512x2048 .f32 := scores q k
  have m : FVec Ideal S512x2048 .f32 :=
    broadcastTo S512x2048
      (shapeCast S512x1
        (multiReduction (F := Ideal) .maximumf [1] S512 s 0xFF800000#32 reduces_S512x2048_S512 (.inl rfl) rfl)
        shapeCasts_S512_S512x1)
      broadcasts_S512x1_S512x2048
  have ex : FVec Ideal S512x2048 .f32 := exp (subf s m)
  have dn : FVec Ideal S512x2048 .f32 :=
    broadcastTo S512x2048
      (shapeCast S512x1
        (multiReduction (F := Ideal) .add [1] S512 ex 0x00000000#32 reduces_S512x2048_S512 (.inl rfl) rfl)
        shapeCasts_S512_S512x1)
      broadcasts_S512x1_S512x2048
  truncf .bf16
    (matmul dot_S512x2048_S2048x64_S512x64_1_0_0_1_n_n none (truncf .bf16 (divf ex dn) bitsLt_bf16_f32) v
      (constant (F := Ideal) S512x64 .f32 0x00000000#32))
    bitsLt_bf16_f32

/-- Entry `(p, e)` of a head is the attention of row `p` of `q` over the rows of `k` and `v`, at feature `e`. -/
theorem head_apply (q : FVec Ideal S512x64 .bf16) (k v : FVec Ideal S2048x64 .bf16) (p : Fin 512) (e : Fin 64) :
    head q k v (ix2 p e)
      = attnRow (fun e' => q (ix2 p e')) (fun j e' => k (ix2 j e')) (fun j e' => v (ix2 j e')) e := by
  unfold head attnRow
  rw [truncf_apply]
  refine (Cert.LibBlock.matmul_zero_ix2 dot_S512x2048_S2048x64_S512x64_1_0_0_1_n_n rfl rfl rfl rfl rfl rfl
    none _ v p e).trans ?_
  have hs : ∀ j : Fin 2048, scores q k (ix2 p j) = (∑ e' : Fin 64, q (ix2 p e') * k (ix2 j e')) * scale :=
    fun j => scores_apply q k p j
  refine Finset.sum_congr rfl fun j _ => ?_
  refine congrArg (· * v (ix2 j e)) ?_
  rw [truncf_apply, divf_apply, rowSum_apply]
  have hex : ∀ j : Fin 2048,
      exp (subf (scores q k)
        (broadcastTo S512x2048
          (shapeCast S512x1
            (multiReduction (F := Ideal) .maximumf [1] S512 (scores q k) 0xFF800000#32 reduces_S512x2048_S512 (.inl rfl) rfl)
            shapeCasts_S512_S512x1)
          broadcasts_S512x1_S512x2048)) (ix2 p j)
        = Ideal.exp ((∑ e' : Fin 64, q (ix2 p e') * k (ix2 j e')) * scale
            - (Finset.univ : Finset (Fin 2048)).fold max negInf
                (fun j' => (∑ e' : Fin 64, q (ix2 p e') * k (ix2 j' e')) * scale)) := fun j => by
    rw [exp_apply, subf_apply, rowMax_apply, hs]
    simp only [hs]
  simp only [hex]

end Cert.Attn.Pay

end
-- ==== Proof.Pay1.lean ====
/-
  The attention block read at an index: two heads side by side.

  The query block has 384 columns and the key / value block 384 columns: head `g` of the pair (`g` = 0, 1) reads its
  query from columns `g·192 + e`, its keys from columns `g·192 + 64 + e` and its values from columns
  `g·192 + 128 + e` (`e < 64`), and its result sits in columns `g·64 + e` of the `[512, 128]` block.

  * `slice_cols_apply`: a slice of columns read at an entry;
  * `k1_pay1_eq`: the block is the two heads of the six column slices, side by side;
  * `pay1_apply`: entry `(p, g·64 + e)` is the attention of row `p` of head `g`'s query columns over head `g`'s key and
    value columns, at feature `e`.
-/
import proofs.«180047_j69148973466281_2_alg».proof.Proof.Gen.KernelIdeal.Skeleton
import proofs.«180047_j69148973466281_2_alg».proof.Proof.Spec
import proofs.«180047_j69148973466281_2_alg».proof.Proof.Pay1Head

noncomputable section

open scoped BigOperators

namespace Cert.Attn.Pay

open Idealize.ShloMosaic Idealize.ShloMosaic.ValueIdx Cert.KernelIdeal Cert.KernelIdeal.Gen

/-- A slice of `c` columns from column `o` on, all rows kept, read at `(p, e)`: the operand at column `o + e`. -/
theorem slice_cols_apply {α : Type} {a b c : ℕ} (o : ℕ) (x : (⟨2, ![a, b]⟩ : Shape).Idx → α)
    (h : (⟨2, ![a, b]⟩ : Shape).Slices ![0, o] ⟨2, ![a, c]⟩) (p : Fin a) (e : Fin c) (t : Fin b)
    (ht : t.val = o + e.val) :
    extractStridedSlice ⟨2, ![a, c]⟩ ![0, o] x h (ix2 p e) = x (ix2 p t) :=
  extractStridedSlice_apply ![0, o] x h (ix2 p e) (ix2 p t) fun ax => by
    match ax with
    | ⟨0, _⟩ => show p.val = 0 + p.val; omega
    | ⟨1, _⟩ => exact ht

/-- The block is the two heads, each of its three column slices, side by side. -/
theorem k1_pay1_eq (qb : FVec Ideal S512x384 .bf16) (kv : FVec Ideal S2048x384 .bf16) :
    k1_pay1 (F := Ideal) qb kv
      = concatenate S512x128 1
          [⟨S512x64, head (extractStridedSlice S512x64 ![0, 0] qb slices_S512x384_o0_0_S512x64)
              (extractStridedSlice S2048x64 ![0, 64] kv slices_S2048x384_o0_64_S2048x64)
              (extractStridedSlice S2048x64 ![0, 128] kv slices_S2048x384_o0_128_S2048x64)⟩,
           ⟨S512x64, head (extractStridedSlice S512x64 ![0, 192] qb slices_S512x384_o0_192_S512x64)
              (extractStridedSlice S2048x64 ![0, 256] kv slices_S2048x384_o0_256_S2048x64)
              (extractStridedSlice S2048x64 ![0, 320] kv slices_S2048x384_o0_320_S2048x64)⟩]
          concatenates_S512x64_S512x64_S512x128_d1 := by
  unfold k1_pay1
  rw [shapeCast_self, shapeCast_self]
  rfl

/-- Entry `(p, g·64 + e)` of the block: head `g`'s attention of row `p`, at feature `e`. -/
theorem pay1_apply (qb : Vec Ideal S512x384 .bf16) (kv : Vec Ideal S2048x384 .bf16) (p : Fin 512) (g : Fin 2)
    (e : Fin 64) :
    k1_pay1 (F := Ideal) qb kv (ix2 p (⟨g.val * 64 + e.val, by omega⟩ : Fin 128))
      = attnRow (fun e' => qb (ix2 p (⟨g.val * 192 + e'.val, by omega⟩ : Fin 384)))
          (fun j e' => kv (ix2 j (⟨g.val * 192 + 64 + e'.val, by omega⟩ : Fin 384)))
          (fun j e' => kv (ix2 j (⟨g.val * 192 + 128 + e'.val, by omega⟩ : Fin 384))) e := by
  refine (congrFun (k1_pay1_eq qb kv) _).trans ?_
  have hg : g.val = 0 ∨ g.val = 1 := by omega
  rcases hg with hg | hg
  · refine (concatenate_pair_apply_left _ _ _ concatenates_S512x64_S512x64_S512x128_d1 _ rfl (ix2 p e)
      fun b => ?_).trans ?_
    · match b with
      | ⟨0, _⟩ => rfl
      | ⟨1, _⟩ => show e.val = g.val * 64 + e.val; omega
    · rw [head_apply]
      refine congrFun (congr (congr (congrArg (attnRow (n := 2048)) (funext fun e' => ?_))
        (funext fun j => funext fun e' => ?_)) (funext fun j => funext fun e' => ?_)) e
      · exact slice_cols_apply 0 qb _ p e' _ (by show g.val * 192 + e'.val = 0 + e'.val; omega)
      · exact slice_cols_apply 64 kv _ j e' _ (by show g.val * 192 + 64 + e'.val = 64 + e'.val; omega)
      · exact slice_cols_apply 128 kv _ j e' _ (by show g.val * 192 + 128 + e'.val = 128 + e'.val; omega)
  · refine (concatenate_pair_apply_right _ _ _ concatenates_S512x64_S512x64_S512x128_d1 _ rfl rfl (ix2 p e)
      (fun b => ?_) ?_).trans ?_
    · match b with
      | ⟨0, _⟩ => exact fun _ => rfl
      | ⟨1, _⟩ => exact fun hne => absurd rfl hne
    · show e.val + 64 = g.val * 64 + e.val
      omega
    · rw [head_apply]
      refine congrFun (congr (congr (congrArg (attnRow (n := 2048)) (funext fun e' => ?_))
        (funext fun j => funext fun e' => ?_)) (funext fun j => funext fun e' => ?_)) e
      · exact slice_cols_apply 192 qb _ p e' _ (by show g.val * 192 + e'.val = 192 + e'.val; omega)
      · exact slice_cols_apply 256 kv _ j e' _ (by show g.val * 192 + 64 + e'.val = 256 + e'.val; omega)
      · exact slice_cols_apply 320 kv _ j e' _ (by show g.val * 192 + 128 + e'.val = 320 + e'.val; omega)

end Cert.Attn.Pay

end
-- ==== Proof.Pay2.lean ====
/-
  The output projection's block read at an index: the rows of the input block against the rows of the weight block
  (a product A · Bᵀ accumulated from zero), plus the bias row spread over the block's rows. Every change of format
  is the identity on the extended reals.
-/
import proofs.«180047_j69148973466281_2_alg».proof.Proof.Gen.KernelIdeal.Skeleton
import proofs.«180047_j69148973466281_2_alg».proof.Proof.Spec
import proofs.«180047_j69148973466281_2_alg».proof.Proof.LibRowOps
import Idealize.ShloMosaic.Lib.ValueLayout

noncomputable section

open scoped BigOperators

namespace Cert.Attn.Pay

open Idealize.ShloMosaic Idealize.ShloMosaic.ValueIdx Cert.KernelIdeal Cert.KernelIdeal.Gen

/-- Entry `(p, q)` of the projected block: `∑ₖ a (p, k) * w (q, k)` plus the bias at `q`. -/
theorem pay2_apply (a : Vec Ideal S512x1024 .bf16) (w : Vec Ideal S1024x1024 .f32) (bias : Vec Ideal S1x1024 .f32)
    (p : Fin 512) (q : Fin 1024) :
    k2_pay1 (F := Ideal) a w bias (ix2 p q)
      = (∑ k : Fin 1024, a (ix2 p k) * w (ix2 q k)) + bias (ix2 (0 : Fin 1) q) := by
  unfold k2_pay1
  simp only [shapeCast_self]
  rw [addf_apply]
  refine congrArg₂ (· + ·) ?_ ?_
  · refine (Cert.LibRowOps.matmul_zero_rows_ix2 dot_S512x1024_S1024x1024_S512x1024_1_1_0_0_n_n rfl rfl rfl rfl rfl rfl
      none _ _ p q).trans ?_
    rfl
  · exact broadcastTo_1b_ab_apply bias broadcasts_S1x1024_S512x1024 p q

end Cert.Attn.Pay

end
-- ==== Proof.Assembly.lean ====
/-
  The kernel's result array at the last boundary, index by index, is `Cert.Attn.out` of the argument arrays.

  Read back through the boundaries: the result is the reshape of the output projection's array, whose entry at row
  b·2048 + t, column d is ∑_k y(b·2048+t, k)·wP(d,k) + bP(d) of the attention array y; y at column h·64 + e is head
  h's attention of that row over the rows of batch entry b of the fused projection; and the fused projection at row
  b·2048 + t, column c is ∑_k x(b,t,k)·wA(c,k) + bA(c) — the flattened input and the two bias rows being reshapes of
  the arguments.
-/
import proofs.«180047_j69148973466281_2_alg».proof.Proof.IdealHost
import proofs.«180047_j69148973466281_2_alg».proof.Proof.Final0
import proofs.«180047_j69148973466281_2_alg».proof.Proof.Final1
import proofs.«180047_j69148973466281_2_alg».proof.Proof.Final2
import proofs.«180047_j69148973466281_2_alg».proof.Proof.Pay0
import proofs.«180047_j69148973466281_2_alg».proof.Proof.Pay1
import proofs.«180047_j69148973466281_2_alg».proof.Proof.Pay2

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Attn (row col hcol qkv ctx ctxCol out3)

variable (m : (ℓ : Loc nD τ sig) → Buf (Elt Ideal) ℓ) (ρ : Dev nD → PrngReg) (c : Dev nD)

/-- The fused projection the second pallas_call finds, at position `t` of batch entry `b`. -/
theorem proj_at (b : Fin 2) (t : Fin 2048) (cc : Fin 3072) :
    V2 m ρ c main_v2 (ix2 (row b t) cc) = qkv (m ((c : Thread nD τ).loc main_arg0)) (m ((c : Thread nD τ).loc main_arg1)) (m ((c : Thread nD τ).loc main_arg2)) b t cc := by
  have h := final0_at Cert.Attn.Pay.pay0_apply (V1 m ρ) c (row b t) cc
  rw [hF0 m ρ c 3] at h
  refine h.trans ?_
  unfold lin0 qkv
  rw [V1_v1_at m ρ c cc, V1_arg1 m ρ c]
  refine congrArg (· + _) (Finset.sum_congr rfl fun k _ => ?_)
  rw [V1_v0_at m ρ c b t k]

/-- Row `j` of the batch entry of row `b·2048 + t` is row `b·2048 + j`. -/
theorem row_batch (b : Fin 2) (t j : Fin 2048) :
    (⟨(row b t).val / 2048 * 2048 + j.val, by have := (row b t).isLt; omega⟩ : Fin 4096) = row b j :=
  Fin.ext (by show (b.val * 2048 + t.val) / 2048 * 2048 + j.val = b.val * 2048 + j.val; omega)

/-- The attention array the third pallas_call finds, at head `h`'s column of feature `e`. -/
theorem attn_at (b : Fin 2) (t : Fin 2048) (h : Fin 16) (e : Fin 64) :
    V4 m ρ c main_v3 (ix2 (row b t) (hcol h e)) = ctx (m ((c : Thread nD τ).loc main_arg0)) (m ((c : Thread nD τ).loc main_arg1)) (m ((c : Thread nD τ).loc main_arg2)) b t h e := by
  rw [V4_v3 m ρ c, W3_out m ρ c, final1_at (V2 m ρ) Cert.Attn.Pay.pay1_apply c (row b t) h e]
  unfold attnAt ctx
  refine attnRow_congr _ _ _ _ _ _ _ _ (fun x => proj_at m ρ c b t _) (fun j x => ?_) (fun j x => ?_) rfl
  · rw [row_batch b t j]; exact proj_at m ρ c b j _
  · rw [row_batch b t j]; exact proj_at m ρ c b j _

/-- …at any column. -/
theorem attn_col_at (b : Fin 2) (t : Fin 2048) (k : Fin 1024) :
    V4 m ρ c main_v3 (ix2 (row b t) k) = ctxCol (m ((c : Thread nD τ).loc main_arg0)) (m ((c : Thread nD τ).loc main_arg1)) (m ((c : Thread nD τ).loc main_arg2)) b t k := by
  have hk : k = hcol ⟨k.val / 64, by omega⟩ ⟨k.val % 64, Nat.mod_lt _ (by decide)⟩ :=
    Fin.ext (by show k.val = k.val / 64 * 64 + k.val % 64; omega)
  have h := attn_at m ρ c b t ⟨k.val / 64, by omega⟩ ⟨k.val % 64, Nat.mod_lt _ (by decide)⟩
  rw [← hk] at h
  exact h

/-- THE RESULT ARRAY at the last boundary. -/
theorem kernel_value : W6 m ρ c (Proc.devRef .tc main_v6) = Cert.Attn.out (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, t, d, rfl⟩ : ∃ (b : Fin 2) (t : Fin 2048) (d : Fin 1024), i = ix3 b t d := ⟨i 0, i 1, i 2, eq_ix3 i⟩
  rw [W6_v6_at m ρ c b t d, ← hF2 m ρ c 3, final2_at Cert.Attn.Pay.pay2_apply (V4 m ρ) c (row b t) d]
  show _ = out3 (m ((c : Thread nD τ).loc main_arg0)) (m ((c : Thread nD τ).loc main_arg1)) (m ((c : Thread nD τ).loc main_arg2)) (m ((c : Thread nD τ).loc main_arg3)) (m ((c : Thread nD τ).loc main_arg4)) b t d
  unfold lin2 out3
  rw [V4_v4_at m ρ c d, V4_arg3 m ρ c]
  refine congrArg (· + _) (Finset.sum_congr rfl fun k _ => ?_)
  rw [attn_col_at m ρ c b t k]

end Cert.KernelIdeal.Hand

end
-- ==== Proof.lean ====
/-
  A Pallas attention layer against its jnp reference, on the extended reals.

  The kernel is three pallas_calls: the fused query/key/value projection x·wAᵀ + bA in [512,1024] blocks; softmax
  attention, two heads a grid point, reading the projection in its per-head interleaved layout (head h owns columns
  h·192 + {query, key, value}·64 + e) through TWO windows on that one array; and the output projection y·wPᵀ + bP.
  The reference computes the same function with whole-array einsums, a transpose to [batch, head, position, feature]
  and jax.nn.softmax.  Both are, index by index, `Cert.Attn.out` of the five argument arrays (Proof/Spec.lean): the
  sums range over the same index sets, the score scale is the same literal 2⁻⁵ on both sides, the row maximum the
  same fold of max from -∞ (the reference's extra maximum with -∞ changes nothing), so no law that needs
  finiteness is used and the precondition is never opened.

  The frames: @main is six items — two reshapes, the three pallas_calls with a reshape before the third, a final
  reshape —, each pallas_call entered from the core's unscoped buffers at the contents the items before it leave and
  left at its output array rewritten (Proof/IdealRun.lean, Proof/BitsRun.lean: the same text at the two instances);
  the second pallas_call holds its shared input array at the two halves of the full share, one per window, and joins
  them at its exit.  Every unscoped buffer is then read at the last boundary: the arguments as launched, the result
  as the three pallas_calls' blocks tile it (Proof/Final0.lean, Final1.lean, Final2.lean, Proof/Assembly.lean).
  The reference's run and its stages read at an index are the generated modules; that its last stage is
  `Cert.Attn.out` is Proof/RefOut.lean.  The ideal pass rewrote nothing, so `preserves` is `True`.
-/
import proofs.«180047_j69148973466281_2_alg».proof.Defs
import proofs.«180047_j69148973466281_2_alg».proof.Proof.Gen.Kernel
import proofs.«180047_j69148973466281_2_alg».proof.Proof.Gen.Kernel.Skeleton
import proofs.«180047_j69148973466281_2_alg».proof.Proof.Gen.Kernel.Launch
import proofs.«180047_j69148973466281_2_alg».proof.Proof.Gen.Kernel.Regions
import proofs.«180047_j69148973466281_2_alg».proof.Proof.Gen.Kernel.Points
import proofs.«180047_j69148973466281_2_alg».proof.Proof.Gen.KernelIdeal
import proofs.«180047_j69148973466281_2_alg».proof.Proof.Gen.KernelIdeal.Skeleton
import proofs.«180047_j69148973466281_2_alg».proof.Proof.Gen.KernelIdeal.Launch
import proofs.«180047_j69148973466281_2_alg».proof.Proof.Gen.KernelIdeal.Regions
import proofs.«180047_j69148973466281_2_alg».proof.Proof.Gen.KernelIdeal.Points
import proofs.«180047_j69148973466281_2_alg».proof.Proof.Gen.ReferenceIdeal
import proofs.«180047_j69148973466281_2_alg».proof.Proof.Gen.ReferenceIdeal.Run
import proofs.«180047_j69148973466281_2_alg».proof.Proof.Gen.ReferenceIdeal.Read
import proofs.«180047_j69148973466281_2_alg».proof.Proof.Gen.Pre_finite_inputs
import proofs.«180047_j69148973466281_2_alg».proof.Proof.BitsRun
import proofs.«180047_j69148973466281_2_alg».proof.Proof.BitsKept
import proofs.«180047_j69148973466281_2_alg».proof.Proof.IdealRun
import proofs.«180047_j69148973466281_2_alg».proof.Proof.IdealKept
import proofs.«180047_j69148973466281_2_alg».proof.Proof.RefOut
import proofs.«180047_j69148973466281_2_alg».proof.Proof.Assembly
import Idealize.ShloMosaic.Adequacy
import Idealize.ShloMosaic.Init

noncomputable section

namespace Cert.Proof

open Idealize.ShloMosaic Idealize.SL.Sem

/-- The word-level kernel runs and leaves its arguments as launched: the run's last boundary read at each argument. -/
theorem frame_p [Cert.Kernel.Facts] [Cert.Pre_finite_inputs.Facts] : Cert.frame_Kernel := fun m ρ _ =>
  (θ_run (Cert.Kernel.defs (F := Bits)) _ _).mono (fun r h c => ⟨
      (h c _ (Cert.Kernel.Hand.mem_uc Cert.Kernel.main_arg0 (by decide))).trans (Cert.Kernel.Hand.W6_main_arg0 m ρ c),
      (h c _ (Cert.Kernel.Hand.mem_uc Cert.Kernel.main_arg1 (by decide))).trans (Cert.Kernel.Hand.W6_main_arg1 m ρ c),
      (h c _ (Cert.Kernel.Hand.mem_uc Cert.Kernel.main_arg2 (by decide))).trans (Cert.Kernel.Hand.W6_main_arg2 m ρ c),
      (h c _ (Cert.Kernel.Hand.mem_uc Cert.Kernel.main_arg3 (by decide))).trans (Cert.Kernel.Hand.W6_main_arg3 m ρ c),
      (h c _ (Cert.Kernel.Hand.mem_uc Cert.Kernel.main_arg4 (by decide))).trans (Cert.Kernel.Hand.W6_main_arg4 m ρ c)⟩)
    (Cert.Kernel.Hand.run (F := Bits) m ρ)

/-- The idealized kernel runs and leaves its arguments as launched. -/
theorem frame_pi [Cert.KernelIdeal.Facts] [Cert.Pre_finite_inputs.Facts] : Cert.frame_KernelIdeal := fun m ρ _ =>
  (θ_run (Cert.KernelIdeal.defs (F := Ideal)) _ _).mono (fun r h c => ⟨
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c)⟩)
    (Cert.KernelIdeal.Hand.run (F := Ideal) m ρ)

/-- The reference runs and leaves its arguments as launched: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with `Cert.Attn.out` of the argument arrays in their result: the kernel by the run's
    last boundary read at the result array, the reference by its last stage. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono (fun r h c => ⟨
      (h c _ (Cert.KernelIdeal.Hand.mem_uc Cert.KernelIdeal.main_v6 (by decide))).trans (Cert.KernelIdeal.Hand.kernel_value m ρ c),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c)⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.Attn.Ref.ref_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
